-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x128x128 : Shape := ⟨4, ![64, 64, 128, 128]⟩
abbrev S16384x64x16 : Shape := ⟨3, ![16384, 64, 16]⟩
abbrev S16384x1x16 : Shape := ⟨3, ![16384, 1, 16]⟩
abbrev S_ : Shape := ⟨0, ![]⟩

class Facts : Prop where
  bcast_S_S64x64x128x128 : S_.BroadcastsInDim S64x64x128x128 (![] : Fin 0 → Fin S64x64x128x128.rank)
  reducesTo_S64x64x128x128_S_d0_1_2_3 : S64x64x128x128.ReducesTo [0, 1, 2, 3] S_
  h_S_ : 0 < S_.numel
  bcast_S_S16384x64x16 : S_.BroadcastsInDim S16384x64x16 (![] : Fin 0 → Fin S16384x64x16.rank)
  reducesTo_S16384x64x16_S_d0_1_2 : S16384x64x16.ReducesTo [0, 1, 2] S_
  bcast_S_S16384x1x16 : S_.BroadcastsInDim S16384x1x16 (![] : Fin 0 → Fin S16384x1x16.rank)
  reducesTo_S16384x1x16_S_d0_1_2 : S16384x1x16.ReducesTo [0, 1, 2] S_

variable [Facts]

def fn {F : FTy → Type} [FloatOps F] (main_arg0 : FVec F S64x64x128x128 .f32) (main_arg1 : FVec F S16384x64x16 .f32) (main_arg2 : FVec F S16384x1x16 .f32) : IVec S_ 1 :=
  let main_v0 : FVec F S64x64x128x128 .f32 := Host.absf main_arg0
  let main_cst : FVec F S_ .f32 := constant S_ .f32 0x7F800000#32
  let main_v1 : FVec F S64x64x128x128 .f32 := broadcastInDim S64x64x128x128 ![] bcast_S_S64x64x128x128 main_cst
  let main_v2 : IVec S64x64x128x128 1 := cmpf .olt main_v0 main_v1
  let main_c : IVec S_ 1 := constantI S_ 1 1#1
  let main_v3 : IVec S_ 1 := (fun x v => Host.reduce IntOp.andi x v reducesTo_S64x64x128x128_S_d0_1_2_3 h_S_) main_v2 main_c
  let main_v4 : FVec F S16384x64x16 .f32 := Host.absf main_arg1
  let main_cst_0 : FVec F S_ .f32 := constant S_ .f32 0x7F800000#32
  let main_v5 : FVec F S16384x64x16 .f32 := broadcastInDim S16384x64x16 ![] bcast_S_S16384x64x16 main_cst_0
  let main_v6 : IVec S16384x64x16 1 := cmpf .olt main_v4 main_v5
  let main_c_1 : IVec S_ 1 := constantI S_ 1 1#1
  let main_v7 : IVec S_ 1 := (fun x v => Host.reduce IntOp.andi x v reducesTo_S16384x64x16_S_d0_1_2 h_S_) main_v6 main_c_1
  let main_v8 : IVec S_ 1 := andi main_v3 main_v7
  let main_v9 : FVec F S16384x1x16 .f32 := Host.absf main_arg2
  let main_cst_2 : FVec F S_ .f32 := constant S_ .f32 0x7F800000#32
  let main_v10 : FVec F S16384x1x16 .f32 := broadcastInDim S16384x1x16 ![] bcast_S_S16384x1x16 main_cst_2
  let main_v11 : IVec S16384x1x16 1 := cmpf .olt main_v9 main_v10
  let main_c_3 : IVec S_ 1 := constantI S_ 1 1#1
  let main_v12 : IVec S_ 1 := (fun x v => Host.reduce IntOp.andi x v reducesTo_S16384x1x16_S_d0_1_2 h_S_) main_v11 main_c_3
  let main_v13 : IVec S_ 1 := andi main_v8 main_v12
  main_v13
-- ==== Kernel.lean ====
abbrev S64x64x128x128 : Shape := ⟨4, ![64, 64, 128, 128]⟩
abbrev S16384x64x16 : Shape := ⟨3, ![16384, 64, 16]⟩
abbrev S16384x1x16 : Shape := ⟨3, ![16384, 1, 16]⟩
abbrev S128x128x1024 : Shape := ⟨3, ![128, 128, 1024]⟩
abbrev S128x128x16 : Shape := ⟨3, ![128, 128, 16]⟩
abbrev S128x128x64x16 : Shape := ⟨4, ![128, 128, 64, 16]⟩
abbrev S16x64x8x128 : Shape := ⟨4, ![16, 64, 8, 128]⟩
abbrev S8x128x1024 : Shape := ⟨3, ![8, 128, 1024]⟩
abbrev S8x128x16 : Shape := ⟨3, ![8, 128, 16]⟩
abbrev S8x128x16x16 : Shape := ⟨4, ![8, 128, 16, 16]⟩
abbrev S16x8x128x16 : Shape := ⟨4, ![16, 8, 128, 16]⟩
abbrev S16x1x8x128 : Shape := ⟨4, ![16, 1, 8, 128]⟩
abbrev S16x8x128 : Shape := ⟨3, ![16, 8, 128]⟩
abbrev S16x8x128x1 : Shape := ⟨4, ![16, 8, 128, 1]⟩
abbrev S1x8x128x16 : Shape := ⟨4, ![1, 8, 128, 16]⟩
abbrev S128x128x64x4x4 : Shape := ⟨5, ![128, 128, 64, 4, 4]⟩
abbrev S64x128x4x128x4 : Shape := ⟨5, ![64, 128, 4, 128, 4]⟩
abbrev S64x512x512 : Shape := ⟨3, ![64, 512, 512]⟩
abbrev S64x1x512x512 : Shape := ⟨4, ![64, 1, 512, 512]⟩

abbrev nBuf : Space → Nat
  | .hbm => 10
  | .vmem => 9
  | .smem => 0
  | _ => 0

abbrev bufTy : (tb : Table) → Fin (tcTables nBuf tb) → BufTy
  | .hbm, ⟨0, _⟩ => ⟨S64x64x128x128, .f32⟩
  | .hbm, ⟨1, _⟩ => ⟨S16384x64x16, .f32⟩
  | .hbm, ⟨2, _⟩ => ⟨S16384x1x16, .f32⟩
  | .hbm, ⟨3, _⟩ => ⟨S128x128x1024, .f32⟩
  | .hbm, ⟨4, _⟩ => ⟨S128x128x16, .f32⟩
  | .hbm, ⟨5, _⟩ => ⟨S128x128x64x16, .f32⟩
  | .hbm, ⟨6, _⟩ => ⟨S128x128x64x4x4, .f32⟩
  | .hbm, ⟨7, _⟩ => ⟨S64x128x4x128x4, .f32⟩
  | .hbm, ⟨8, _⟩ => ⟨S64x512x512, .f32⟩
  | .hbm, ⟨9, _⟩ => ⟨S64x1x512x512, .f32⟩
  | .local _ .vmem, ⟨0, _⟩ => ⟨S16x64x8x128, .f32⟩
  | .local _ .vmem, ⟨1, _⟩ => ⟨S16x64x8x128, .f32⟩
  | .local _ .vmem, ⟨2, _⟩ => ⟨S8x128x1024, .f32⟩
  | .local _ .vmem, ⟨3, _⟩ => ⟨S8x128x1024, .f32⟩
  | .local _ .vmem, ⟨4, _⟩ => ⟨S8x128x16, .f32⟩
  | .local _ .vmem, ⟨5, _⟩ => ⟨S8x128x16, .f32⟩
  | .local _ .vmem, ⟨6, _⟩ => ⟨S8x128x16x16, .f32⟩
  | .local _ .vmem, ⟨7, _⟩ => ⟨S8x128x16x16, .f32⟩
  | .local _ .vmem, ⟨8, _⟩ => ⟨S16x8x128x16, .f32⟩
  | _, _ => ⟨S64x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S16x64x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16384x64x16_S128x128x1024 : S16384x64x16.ShapeCasts S128x128x1024
  shapeCasts_S16384x1x16_S128x128x16 : S16384x1x16.ShapeCasts S128x128x16
  inb_S16x8x128x16_S16x8x128x16_0_0_0_0 : ∀ a, (![0, 0, 0, 0] : Fin 4 → Nat) a + S16x8x128x16.size a ≤ S16x8x128x16.size a
  h_S16x8x128x16 : 0 < S16x8x128x16.numel
  shapeCasts_S16x8x128x16_S16x8x128x16 : S16x8x128x16.ShapeCasts S16x8x128x16
  inb_S16x64x8x128_S16x1x8x128_0_0_0_0 : ∀ a, (![0, 0, 0, 0] : Fin 4 → Nat) a + S16x1x8x128.size a ≤ S16x64x8x128.size a
  h_S16x1x8x128 : 0 < S16x1x8x128.numel
  shapeCasts_S16x1x8x128_S16x8x128 : S16x1x8x128.ShapeCasts S16x8x128
  inb_S8x128x1024_S8x128x16_0_0_0 : ∀ a, (![0, 0, 0] : Fin 3 → Nat) a + S8x128x16.size a ≤ S8x128x1024.size a
  h_S8x128x16 : 0 < S8x128x16.numel
  shapeCasts_S8x128x16_S8x128x16 : S8x128x16.ShapeCasts S8x128x16
  shapeCasts_S16x8x128_S16x8x128x1 : S16x8x128.ShapeCasts S16x8x128x1
  shapeCasts_S8x128x16_S1x8x128x16 : S8x128x16.ShapeCasts S1x8x128x16
  broadcasts_S16x8x128x1_S16x8x128x16 : S16x8x128x1.Broadcasts S16x8x128x16
  broadcasts_S1x8x128x16_S16x8x128x16 : S1x8x128x16.Broadcasts S16x8x128x16
  inb_S16x64x8x128_S16x1x8x128_0_1_0_0 : ∀ a, (![0, 1, 0, 0] : Fin 4 → Nat) a + S16x1x8x128.size a ≤ S16x64x8x128.size a
  inb_S8x128x1024_S8x128x16_0_0_16 : ∀ a, (![0, 0, 16] : Fin 3 → Nat) a + S8x128x16.size a ≤ S8x128x1024.size a
  inb_S16x64x8x128_S16x1x8x128_0_2_0_0 : ∀ a, (![0, 2, 0, 0] : Fin 4 → Nat) a + S16x1x8x128.size a ≤ S16x64x8x128.size a
  inb_S8x128x1024_S8x128x16_0_0_32 : ∀ a, (![0, 0, 32] : Fin 3 → Nat) a + S8x128x16.size a ≤ S8x128x1024.size a
  inb_S16x64x8x128_S16x1x8x128_0_3_0_0 : ∀ a, (![0, 3, 0, 0] : Fin 4 → Nat) a + S16x1x8x128.size a ≤ S16x64x8x128.size a
  inb_S8x128x1024_S8x128x16_0_0_48 : ∀ a, (![0, 0, 48] : Fin 3 → Nat) a + S8x128x16.size a ≤ S8x128x1024.size a
  inb_S16x64x8x128_S16x1x8x128_0_4_0_0 : ∀ a, (![0, 4, 0, 0] : Fin 4 → Nat) a + S16x1x8x128.size a ≤ S16x64x8x128.size a
  inb_S8x128x1024_S8x128x16_0_0_64 : ∀ a, (![0, 0, 64] : Fin 3 → Nat) a + S8x128x16.size a ≤ S8x128x1024.size a
  inb_S16x64x8x128_S16x1x8x128_0_5_0_0 : ∀ a, (![0, 5, 0, 0] : Fin 4 → Nat) a + S16x1x8x128.size a ≤ S16x64x8x128.size a
  inb_S8x128x1024_S8x128x16_0_0_80 : ∀ a, (![0, 0, 80] : Fin 3 → Nat) a + S8x128x16.size a ≤ S8x128x1024.size a
  inb_S16x64x8x128_S16x1x8x128_0_6_0_0 : ∀ a, (![0, 6, 0, 0] : Fin 4 → Nat) a + S16x1x8x128.size a ≤ S16x64x8x128.size a
  inb_S8x128x1024_S8x128x16_0_0_96 : ∀ a, (![0, 0, 96] : Fin 3 → Nat) a + S8x128x16.size a ≤ S8x128x1024.size a
  inb_S16x64x8x128_S16x1x8x128_0_7_0_0 : ∀ a, (![0, 7, 0, 0] : Fin 4 → Nat) a + S16x1x8x128.size a ≤ S16x64x8x128.size a
  inb_S8x128x1024_S8x128x16_0_0_112 : ∀ a, (![0, 0, 112] : Fin 3 → Nat) a + S8x128x16.size a ≤ S8x128x1024.size a
  inb_S16x64x8x128_S16x1x8x128_0_8_0_0 : ∀ a, (![0, 8, 0, 0] : Fin 4 → Nat) a + S16x1x8x128.size a ≤ S16x64x8x128.size a
  inb_S8x128x1024_S8x128x16_0_0_128 : ∀ a, (![0, 0, 128] : Fin 3 → Nat) a + S8x128x16.size a ≤ S8x128x1024.size a
  inb_S16x64x8x128_S16x1x8x128_0_9_0_0 : ∀ a, (![0, 9, 0, 0] : Fin 4 → Nat) a + S16x1x8x128.size a ≤ S16x64x8x128.size a
  inb_S8x128x1024_S8x128x16_0_0_144 : ∀ a, (![0, 0, 144] : Fin 3 → Nat) a + S8x128x16.size a ≤ S8x128x1024.size a
  inb_S16x64x8x128_S16x1x8x128_0_10_0_0 : ∀ a, (![0, 10, 0, 0] : Fin 4 → Nat) a + S16x1x8x128.size a ≤ S16x64x8x128.size a
  inb_S8x128x1024_S8x128x16_0_0_160 : ∀ a, (![0, 0, 160] : Fin 3 → Nat) a + S8x128x16.size a ≤ S8x128x1024.size a
  inb_S16x64x8x128_S16x1x8x128_0_11_0_0 : ∀ a, (![0, 11, 0, 0] : Fin 4 → Nat) a + S16x1x8x128.size a ≤ S16x64x8x128.size a
  inb_S8x128x1024_S8x128x16_0_0_176 : ∀ a, (![0, 0, 176] : Fin 3 → Nat) a + S8x128x16.size a ≤ S8x128x1024.size a
  inb_S16x64x8x128_S16x1x8x128_0_12_0_0 : ∀ a, (![0, 12, 0, 0] : Fin 4 → Nat) a + S16x1x8x128.size a ≤ S16x64x8x128.size a
  inb_S8x128x1024_S8x128x16_0_0_192 : ∀ a, (![0, 0, 192] : Fin 3 → Nat) a + S8x128x16.size a ≤ S8x128x1024.size a
  inb_S16x64x8x128_S16x1x8x128_0_13_0_0 : ∀ a, (![0, 13, 0, 0] : Fin 4 → Nat) a + S16x1x8x128.size a ≤ S16x64x8x128.size a
  inb_S8x128x1024_S8x128x16_0_0_208 : ∀ a, (![0, 0, 208] : Fin 3 → Nat) a + S8x128x16.size a ≤ S8x128x1024.size a
  inb_S16x64x8x128_S16x1x8x128_0_14_0_0 : ∀ a, (![0, 14, 0, 0] : Fin 4 → Nat) a + S16x1x8x128.size a ≤ S16x64x8x128.size a
  inb_S8x128x1024_S8x128x16_0_0_224 : ∀ a, (![0, 0, 224] : Fin 3 → Nat) a + S8x128x16.size a ≤ S8x128x1024.size a
  inb_S16x64x8x128_S16x1x8x128_0_15_0_0 : ∀ a, (![0, 15, 0, 0] : Fin 4 → Nat) a + S16x1x8x128.size a ≤ S16x64x8x128.size a
  inb_S8x128x1024_S8x128x16_0_0_240 : ∀ a, (![0, 0, 240] : Fin 3 → Nat) a + S8x128x16.size a ≤ S8x128x1024.size a
  inb_S16x64x8x128_S16x1x8x128_0_16_0_0 : ∀ a, (![0, 16, 0, 0] : Fin 4 → Nat) a + S16x1x8x128.size a ≤ S16x64x8x128.size a
  inb_S8x128x1024_S8x128x16_0_0_256 : ∀ a, (![0, 0, 256] : Fin 3 → Nat) a + S8x128x16.size a ≤ S8x128x1024.size a
  inb_S16x64x8x128_S16x1x8x128_0_17_0_0 : ∀ a, (![0, 17, 0, 0] : Fin 4 → Nat) a + S16x1x8x128.size a ≤ S16x64x8x128.size a
  inb_S8x128x1024_S8x128x16_0_0_272 : ∀ a, (![0, 0, 272] : Fin 3 → Nat) a + S8x128x16.size a ≤ S8x128x1024.size a
  inb_S16x64x8x128_S16x1x8x128_0_18_0_0 : ∀ a, (![0, 18, 0, 0] : Fin 4 → Nat) a + S16x1x8x128.size a ≤ S16x64x8x128.size a
  inb_S8x128x1024_S8x128x16_0_0_288 : ∀ a, (![0, 0, 288] : Fin 3 → Nat) a + S8x128x16.size a ≤ S8x128x1024.size a
  inb_S16x64x8x128_S16x1x8x128_0_19_0_0 : ∀ a, (![0, 19, 0, 0] : Fin 4 → Nat) a + S16x1x8x128.size a ≤ S16x64x8x128.size a
  inb_S8x128x1024_S8x128x16_0_0_304 : ∀ a, (![0, 0, 304] : Fin 3 → Nat) a + S8x128x16.size a ≤ S8x128x1024.size a
  inb_S16x64x8x128_S16x1x8x128_0_20_0_0 : ∀ a, (![0, 20, 0, 0] : Fin 4 → Nat) a + S16x1x8x128.size a ≤ S16x64x8x128.size a
  inb_S8x128x1024_S8x128x16_0_0_320 : ∀ a, (![0, 0, 320] : Fin 3 → Nat) a + S8x128x16.size a ≤ S8x128x1024.size a
  inb_S16x64x8x128_S16x1x8x128_0_21_0_0 : ∀ a, (![0, 21, 0, 0] : Fin 4 → Nat) a + S16x1x8x128.size a ≤ S16x64x8x128.size a
  inb_S8x128x1024_S8x128x16_0_0_336 : ∀ a, (![0, 0, 336] : Fin 3 → Nat) a + S8x128x16.size a ≤ S8x128x1024.size a
  inb_S16x64x8x128_S16x1x8x128_0_22_0_0 : ∀ a, (![0, 22, 0, 0] : Fin 4 → Nat) a + S16x1x8x128.size a ≤ S16x64x8x128.size a
  inb_S8x128x1024_S8x128x16_0_0_352 : ∀ a, (![0, 0, 352] : Fin 3 → Nat) a + S8x128x16.size a ≤ S8x128x1024.size a
  inb_S16x64x8x128_S16x1x8x128_0_23_0_0 : ∀ a, (![0, 23, 0, 0] : Fin 4 → Nat) a + S16x1x8x128.size a ≤ S16x64x8x128.size a
  inb_S8x128x1024_S8x128x16_0_0_368 : ∀ a, (![0, 0, 368] : Fin 3 → Nat) a + S8x128x16.size a ≤ S8x128x1024.size a
  inb_S16x64x8x128_S16x1x8x128_0_24_0_0 : ∀ a, (![0, 24, 0, 0] : Fin 4 → Nat) a + S16x1x8x128.size a ≤ S16x64x8x128.size a
  inb_S8x128x1024_S8x128x16_0_0_384 : ∀ a, (![0, 0, 384] : Fin 3 → Nat) a + S8x128x16.size a ≤ S8x128x1024.size a
  inb_S16x64x8x128_S16x1x8x128_0_25_0_0 : ∀ a, (![0, 25, 0, 0] : Fin 4 → Nat) a + S16x1x8x128.size a ≤ S16x64x8x128.size a
  inb_S8x128x1024_S8x128x16_0_0_400 : ∀ a, (![0, 0, 400] : Fin 3 → Nat) a + S8x128x16.size a ≤ S8x128x1024.size a
  inb_S16x64x8x128_S16x1x8x128_0_26_0_0 : ∀ a, (![0, 26, 0, 0] : Fin 4 → Nat) a + S16x1x8x128.size a ≤ S16x64x8x128.size a
  inb_S8x128x1024_S8x128x16_0_0_416 : ∀ a, (![0, 0, 416] : Fin 3 → Nat) a + S8x128x16.size a ≤ S8x128x1024.size a
  inb_S16x64x8x128_S16x1x8x128_0_27_0_0 : ∀ a, (![0, 27, 0, 0] : Fin 4 → Nat) a + S16x1x8x128.size a ≤ S16x64x8x128.size a
  inb_S8x128x1024_S8x128x16_0_0_432 : ∀ a, (![0, 0, 432] : Fin 3 → Nat) a + S8x128x16.size a ≤ S8x128x1024.size a
  inb_S16x64x8x128_S16x1x8x128_0_28_0_0 : ∀ a, (![0, 28, 0, 0] : Fin 4 → Nat) a + S16x1x8x128.size a ≤ S16x64x8x128.size a
  inb_S8x128x1024_S8x128x16_0_0_448 : ∀ a, (![0, 0, 448] : Fin 3 → Nat) a + S8x128x16.size a ≤ S8x128x1024.size a
  inb_S16x64x8x128_S16x1x8x128_0_29_0_0 : ∀ a, (![0, 29, 0, 0] : Fin 4 → Nat) a + S16x1x8x128.size a ≤ S16x64x8x128.size a
  inb_S8x128x1024_S8x128x16_0_0_464 : ∀ a, (![0, 0, 464] : Fin 3 → Nat) a + S8x128x16.size a ≤ S8x128x1024.size a
  inb_S16x64x8x128_S16x1x8x128_0_30_0_0 : ∀ a, (![0, 30, 0, 0] : Fin 4 → Nat) a + S16x1x8x128.size a ≤ S16x64x8x128.size a
  inb_S8x128x1024_S8x128x16_0_0_480 : ∀ a, (![0, 0, 480] : Fin 3 → Nat) a + S8x128x16.size a ≤ S8x128x1024.size a
  inb_S16x64x8x128_S16x1x8x128_0_31_0_0 : ∀ a, (![0, 31, 0, 0] : Fin 4 → Nat) a + S16x1x8x128.size a ≤ S16x64x8x128.size a
  inb_S8x128x1024_S8x128x16_0_0_496 : ∀ a, (![0, 0, 496] : Fin 3 → Nat) a + S8x128x16.size a ≤ S8x128x1024.size a
  inb_S16x64x8x128_S16x1x8x128_0_32_0_0 : ∀ a, (![0, 32, 0, 0] : Fin 4 → Nat) a + S16x1x8x128.size a ≤ S16x64x8x128.size a
  inb_S8x128x1024_S8x128x16_0_0_512 : ∀ a, (![0, 0, 512] : Fin 3 → Nat) a + S8x128x16.size a ≤ S8x128x1024.size a
  inb_S16x64x8x128_S16x1x8x128_0_33_0_0 : ∀ a, (![0, 33, 0, 0] : Fin 4 → Nat) a + S16x1x8x128.size a ≤ S16x64x8x128.size a
  inb_S8x128x1024_S8x128x16_0_0_528 : ∀ a, (![0, 0, 528] : Fin 3 → Nat) a + S8x128x16.size a ≤ S8x128x1024.size a
  inb_S16x64x8x128_S16x1x8x128_0_34_0_0 : ∀ a, (![0, 34, 0, 0] : Fin 4 → Nat) a + S16x1x8x128.size a ≤ S16x64x8x128.size a
  inb_S8x128x1024_S8x128x16_0_0_544 : ∀ a, (![0, 0, 544] : Fin 3 → Nat) a + S8x128x16.size a ≤ S8x128x1024.size a
  inb_S16x64x8x128_S16x1x8x128_0_35_0_0 : ∀ a, (![0, 35, 0, 0] : Fin 4 → Nat) a + S16x1x8x128.size a ≤ S16x64x8x128.size a
  inb_S8x128x1024_S8x128x16_0_0_560 : ∀ a, (![0, 0, 560] : Fin 3 → Nat) a + S8x128x16.size a ≤ S8x128x1024.size a
  inb_S16x64x8x128_S16x1x8x128_0_36_0_0 : ∀ a, (![0, 36, 0, 0] : Fin 4 → Nat) a + S16x1x8x128.size a ≤ S16x64x8x128.size a
  inb_S8x128x1024_S8x128x16_0_0_576 : ∀ a, (![0, 0, 576] : Fin 3 → Nat) a + S8x128x16.size a ≤ S8x128x1024.size a
  inb_S16x64x8x128_S16x1x8x128_0_37_0_0 : ∀ a, (![0, 37, 0, 0] : Fin 4 → Nat) a + S16x1x8x128.size a ≤ S16x64x8x128.size a
  inb_S8x128x1024_S8x128x16_0_0_592 : ∀ a, (![0, 0, 592] : Fin 3 → Nat) a + S8x128x16.size a ≤ S8x128x1024.size a
  inb_S16x64x8x128_S16x1x8x128_0_38_0_0 : ∀ a, (![0, 38, 0, 0] : Fin 4 → Nat) a + S16x1x8x128.size a ≤ S16x64x8x128.size a
  inb_S8x128x1024_S8x128x16_0_0_608 : ∀ a, (![0, 0, 608] : Fin 3 → Nat) a + S8x128x16.size a ≤ S8x128x1024.size a
  inb_S16x64x8x128_S16x1x8x128_0_39_0_0 : ∀ a, (![0, 39, 0, 0] : Fin 4 → Nat) a + S16x1x8x128.size a ≤ S16x64x8x128.size a
  inb_S8x128x1024_S8x128x16_0_0_624 : ∀ a, (![0, 0, 624] : Fin 3 → Nat) a + S8x128x16.size a ≤ S8x128x1024.size a
  inb_S16x64x8x128_S16x1x8x128_0_40_0_0 : ∀ a, (![0, 40, 0, 0] : Fin 4 → Nat) a + S16x1x8x128.size a ≤ S16x64x8x128.size a
  inb_S8x128x1024_S8x128x16_0_0_640 : ∀ a, (![0, 0, 640] : Fin 3 → Nat) a + S8x128x16.size a ≤ S8x128x1024.size a
  inb_S16x64x8x128_S16x1x8x128_0_41_0_0 : ∀ a, (![0, 41, 0, 0] : Fin 4 → Nat) a + S16x1x8x128.size a ≤ S16x64x8x128.size a
  inb_S8x128x1024_S8x128x16_0_0_656 : ∀ a, (![0, 0, 656] : Fin 3 → Nat) a + S8x128x16.size a ≤ S8x128x1024.size a
  inb_S16x64x8x128_S16x1x8x128_0_42_0_0 : ∀ a, (![0, 42, 0, 0] : Fin 4 → Nat) a + S16x1x8x128.size a ≤ S16x64x8x128.size a
  inb_S8x128x1024_S8x128x16_0_0_672 : ∀ a, (![0, 0, 672] : Fin 3 → Nat) a + S8x128x16.size a ≤ S8x128x1024.size a
  inb_S16x64x8x128_S16x1x8x128_0_43_0_0 : ∀ a, (![0, 43, 0, 0] : Fin 4 → Nat) a + S16x1x8x128.size a ≤ S16x64x8x128.size a
  inb_S8x128x1024_S8x128x16_0_0_688 : ∀ a, (![0, 0, 688] : Fin 3 → Nat) a + S8x128x16.size a ≤ S8x128x1024.size a
  inb_S16x64x8x128_S16x1x8x128_0_44_0_0 : ∀ a, (![0, 44, 0, 0] : Fin 4 → Nat) a + S16x1x8x128.size a ≤ S16x64x8x128.size a
  inb_S8x128x1024_S8x128x16_0_0_704 : ∀ a, (![0, 0, 704] : Fin 3 → Nat) a + S8x128x16.size a ≤ S8x128x1024.size a
  inb_S16x64x8x128_S16x1x8x128_0_45_0_0 : ∀ a, (![0, 45, 0, 0] : Fin 4 → Nat) a + S16x1x8x128.size a ≤ S16x64x8x128.size a
  inb_S8x128x1024_S8x128x16_0_0_720 : ∀ a, (![0, 0, 720] : Fin 3 → Nat) a + S8x128x16.size a ≤ S8x128x1024.size a
  inb_S16x64x8x128_S16x1x8x128_0_46_0_0 : ∀ a, (![0, 46, 0, 0] : Fin 4 → Nat) a + S16x1x8x128.size a ≤ S16x64x8x128.size a
  inb_S8x128x1024_S8x128x16_0_0_736 : ∀ a, (![0, 0, 736] : Fin 3 → Nat) a + S8x128x16.size a ≤ S8x128x1024.size a
  inb_S16x64x8x128_S16x1x8x128_0_47_0_0 : ∀ a, (![0, 47, 0, 0] : Fin 4 → Nat) a + S16x1x8x128.size a ≤ S16x64x8x128.size a
  inb_S8x128x1024_S8x128x16_0_0_752 : ∀ a, (![0, 0, 752] : Fin 3 → Nat) a + S8x128x16.size a ≤ S8x128x1024.size a
  inb_S16x64x8x128_S16x1x8x128_0_48_0_0 : ∀ a, (![0, 48, 0, 0] : Fin 4 → Nat) a + S16x1x8x128.size a ≤ S16x64x8x128.size a
  inb_S8x128x1024_S8x128x16_0_0_768 : ∀ a, (![0, 0, 768] : Fin 3 → Nat) a + S8x128x16.size a ≤ S8x128x1024.size a
  inb_S16x64x8x128_S16x1x8x128_0_49_0_0 : ∀ a, (![0, 49, 0, 0] : Fin 4 → Nat) a + S16x1x8x128.size a ≤ S16x64x8x128.size a
  inb_S8x128x1024_S8x128x16_0_0_784 : ∀ a, (![0, 0, 784] : Fin 3 → Nat) a + S8x128x16.size a ≤ S8x128x1024.size a
  inb_S16x64x8x128_S16x1x8x128_0_50_0_0 : ∀ a, (![0, 50, 0, 0] : Fin 4 → Nat) a + S16x1x8x128.size a ≤ S16x64x8x128.size a
  inb_S8x128x1024_S8x128x16_0_0_800 : ∀ a, (![0, 0, 800] : Fin 3 → Nat) a + S8x128x16.size a ≤ S8x128x1024.size a
  inb_S16x64x8x128_S16x1x8x128_0_51_0_0 : ∀ a, (![0, 51, 0, 0] : Fin 4 → Nat) a + S16x1x8x128.size a ≤ S16x64x8x128.size a
  inb_S8x128x1024_S8x128x16_0_0_816 : ∀ a, (![0, 0, 816] : Fin 3 → Nat) a + S8x128x16.size a ≤ S8x128x1024.size a
  inb_S16x64x8x128_S16x1x8x128_0_52_0_0 : ∀ a, (![0, 52, 0, 0] : Fin 4 → Nat) a + S16x1x8x128.size a ≤ S16x64x8x128.size a
  inb_S8x128x1024_S8x128x16_0_0_832 : ∀ a, (![0, 0, 832] : Fin 3 → Nat) a + S8x128x16.size a ≤ S8x128x1024.size a
  inb_S16x64x8x128_S16x1x8x128_0_53_0_0 : ∀ a, (![0, 53, 0, 0] : Fin 4 → Nat) a + S16x1x8x128.size a ≤ S16x64x8x128.size a
  inb_S8x128x1024_S8x128x16_0_0_848 : ∀ a, (![0, 0, 848] : Fin 3 → Nat) a + S8x128x16.size a ≤ S8x128x1024.size a
  inb_S16x64x8x128_S16x1x8x128_0_54_0_0 : ∀ a, (![0, 54, 0, 0] : Fin 4 → Nat) a + S16x1x8x128.size a ≤ S16x64x8x128.size a
  inb_S8x128x1024_S8x128x16_0_0_864 : ∀ a, (![0, 0, 864] : Fin 3 → Nat) a + S8x128x16.size a ≤ S8x128x1024.size a
  inb_S16x64x8x128_S16x1x8x128_0_55_0_0 : ∀ a, (![0, 55, 0, 0] : Fin 4 → Nat) a + S16x1x8x128.size a ≤ S16x64x8x128.size a
  inb_S8x128x1024_S8x128x16_0_0_880 : ∀ a, (![0, 0, 880] : Fin 3 → Nat) a + S8x128x16.size a ≤ S8x128x1024.size a
  inb_S16x64x8x128_S16x1x8x128_0_56_0_0 : ∀ a, (![0, 56, 0, 0] : Fin 4 → Nat) a + S16x1x8x128.size a ≤ S16x64x8x128.size a
  inb_S8x128x1024_S8x128x16_0_0_896 : ∀ a, (![0, 0, 896] : Fin 3 → Nat) a + S8x128x16.size a ≤ S8x128x1024.size a
  inb_S16x64x8x128_S16x1x8x128_0_57_0_0 : ∀ a, (![0, 57, 0, 0] : Fin 4 → Nat) a + S16x1x8x128.size a ≤ S16x64x8x128.size a
  inb_S8x128x1024_S8x128x16_0_0_912 : ∀ a, (![0, 0, 912] : Fin 3 → Nat) a + S8x128x16.size a ≤ S8x128x1024.size a
  inb_S16x64x8x128_S16x1x8x128_0_58_0_0 : ∀ a, (![0, 58, 0, 0] : Fin 4 → Nat) a + S16x1x8x128.size a ≤ S16x64x8x128.size a
  inb_S8x128x1024_S8x128x16_0_0_928 : ∀ a, (![0, 0, 928] : Fin 3 → Nat) a + S8x128x16.size a ≤ S8x128x1024.size a
  inb_S16x64x8x128_S16x1x8x128_0_59_0_0 : ∀ a, (![0, 59, 0, 0] : Fin 4 → Nat) a + S16x1x8x128.size a ≤ S16x64x8x128.size a
  inb_S8x128x1024_S8x128x16_0_0_944 : ∀ a, (![0, 0, 944] : Fin 3 → Nat) a + S8x128x16.size a ≤ S8x128x1024.size a
  inb_S16x64x8x128_S16x1x8x128_0_60_0_0 : ∀ a, (![0, 60, 0, 0] : Fin 4 → Nat) a + S16x1x8x128.size a ≤ S16x64x8x128.size a
  inb_S8x128x1024_S8x128x16_0_0_960 : ∀ a, (![0, 0, 960] : Fin 3 → Nat) a + S8x128x16.size a ≤ S8x128x1024.size a
  inb_S16x64x8x128_S16x1x8x128_0_61_0_0 : ∀ a, (![0, 61, 0, 0] : Fin 4 → Nat) a + S16x1x8x128.size a ≤ S16x64x8x128.size a
  inb_S8x128x1024_S8x128x16_0_0_976 : ∀ a, (![0, 0, 976] : Fin 3 → Nat) a + S8x128x16.size a ≤ S8x128x1024.size a
  inb_S16x64x8x128_S16x1x8x128_0_62_0_0 : ∀ a, (![0, 62, 0, 0] : Fin 4 → Nat) a + S16x1x8x128.size a ≤ S16x64x8x128.size a
  inb_S8x128x1024_S8x128x16_0_0_992 : ∀ a, (![0, 0, 992] : Fin 3 → Nat) a + S8x128x16.size a ≤ S8x128x1024.size a
  inb_S16x64x8x128_S16x1x8x128_0_63_0_0 : ∀ a, (![0, 63, 0, 0] : Fin 4 → Nat) a + S16x1x8x128.size a ≤ S16x64x8x128.size a
  inb_S8x128x1024_S8x128x16_0_0_1008 : ∀ a, (![0, 0, 1008] : Fin 3 → Nat) a + S8x128x16.size a ≤ S8x128x1024.size a
  inb_S8x128x16_S8x128x16_0_0_0 : ∀ a, (![0, 0, 0] : Fin 3 → Nat) a + S8x128x16.size a ≤ S8x128x16.size a
  transposes_S16x8x128x16_p1_2_0_3_S8x128x16x16 : S16x8x128x16.Transposes [1, 2, 0, 3] S8x128x16x16
  inb_S8x128x16x16_S8x128x16x16_0_0_0_0 : ∀ a, (![0, 0, 0, 0] : Fin 4 → Nat) a + S8x128x16x16.size a ≤ S8x128x16x16.size a
  h_S8x128x16x16 : 0 < S8x128x16x16.numel
  shapeCasts_S128x128x64x16_S128x128x64x4x4 : S128x128x64x16.ShapeCasts S128x128x64x4x4
  transposes_S128x128x64x4x4_S64x128x4x128x4_2_0_3_1_4 : S128x128x64x4x4.Transposes [2, 0, 3, 1, 4] S64x128x4x128x4
  shapeCasts_S64x128x4x128x4_S64x512x512 : S64x128x4x128x4.ShapeCasts S64x512x512
  bcast_S64x512x512_S64x1x512x512_0_2_3 : S64x512x512.BroadcastsInDim S64x1x512x512 (![0, 2, 3] : Fin 3 → Fin S64x1x512x512.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x8x128.size a ≤ S64x64x128x128.size a
  hwx0_0 : ∀ i : grid0.Coords, EltTy.bits .f32 = 32 ∨ (Rect.block (s := S64x64x128x128) S16x64x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1024.size a ≤ S128x128x1024.size a
  hwx0_1 : ∀ i : grid0.Coords, EltTy.bits .f32 = 32 ∨ (Rect.block (s := S128x128x1024) S8x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x16.size a ≤ S128x128x16.size a
  hwx0_2 : ∀ i : grid0.Coords, EltTy.bits .f32 = 32 ∨ (Rect.block (s := S128x128x16) S8x128x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x16x16.size a ≤ S128x128x64x16.size a
  hwx0_3 : ∀ i : grid0.Coords, EltTy.bits .f32 = 32 ∨ (Rect.block (s := S128x128x64x16) S8x128x16x16.size (cc0_transform_3 i) (hinb0_3 i)).WholeWords (EltTy.packing .f32)

variable [Facts₀]

abbrev win0_0 : Pipeline.Window sig grid0 :=
  Pipeline.Window.ofSpec (Memref.whole main_arg0) S16x64x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x128x16x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x64x128x128 : Shape := ⟨4, ![64, 64, 128, 128]⟩
abbrev S16384x64x16 : Shape := ⟨3, ![16384, 64, 16]⟩
abbrev S16384x1x16 : Shape := ⟨3, ![16384, 1, 16]⟩
abbrev S64x64x16384 : Shape := ⟨3, ![64, 64, 16384]⟩
abbrev S16384x64x64 : Shape := ⟨3, ![16384, 64, 64]⟩
abbrev S128x128x64x4x4 : Shape := ⟨5, ![128, 128, 64, 4, 4]⟩
abbrev S64x128x4x128x4 : Shape := ⟨5, ![64, 128, 4, 128, 4]⟩
abbrev S64x512x512 : Shape := ⟨3, ![64, 512, 512]⟩
abbrev S64x1x512x512 : Shape := ⟨4, ![64, 1, 512, 512]⟩

abbrev nBuf : Space → Nat
  | .hbm => 12
  | .vmem => 0
  | .smem => 0
  | _ => 0

abbrev bufTy : (tb : Table) → Fin (tcTables nBuf tb) → BufTy
  | .hbm, ⟨0, _⟩ => ⟨S64x64x128x128, .f32⟩
  | .hbm, ⟨1, _⟩ => ⟨S16384x64x16, .f32⟩
  | .hbm, ⟨2, _⟩ => ⟨S16384x1x16, .f32⟩
  | .hbm, ⟨3, _⟩ => ⟨S64x64x16384, .f32⟩
  | .hbm, ⟨4, _⟩ => ⟨S16384x64x64, .f32⟩
  | .hbm, ⟨5, _⟩ => ⟨S16384x64x16, .f32⟩
  | .hbm, ⟨6, _⟩ => ⟨S16384x64x16, .f32⟩
  | .hbm, ⟨7, _⟩ => ⟨S16384x64x16, .f32⟩
  | .hbm, ⟨8, _⟩ => ⟨S128x128x64x4x4, .f32⟩
  | .hbm, ⟨9, _⟩ => ⟨S64x128x4x128x4, .f32⟩
  | .hbm, ⟨10, _⟩ => ⟨S64x512x512, .f32⟩
  | .hbm, ⟨11, _⟩ => ⟨S64x1x512x512, .f32⟩
  | _, _ => ⟨S64x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  shapeCasts_S64x64x128x128_S64x64x16384 : S64x64x128x128.ShapeCasts S64x64x16384
  transposes_S64x64x16384_S16384x64x64_2_0_1 : S64x64x16384.Transposes [2, 0, 1] S16384x64x64
  bcast_S16384x1x16_S16384x64x16_0_1_2 : S16384x1x16.BroadcastsInDim S16384x64x16 (![0, 1, 2] : Fin 3 → Fin S16384x64x16.rank)
  shapeCasts_S16384x64x16_S128x128x64x4x4 : S16384x64x16.ShapeCasts S128x128x64x4x4
  transposes_S128x128x64x4x4_S64x128x4x128x4_2_0_3_1_4 : S128x128x64x4x4.Transposes [2, 0, 3, 1, 4] S64x128x4x128x4
  shapeCasts_S64x128x4x128x4_S64x512x512 : S64x128x4x128x4.ShapeCasts S64x512x512
  bcast_S64x512x512_S64x1x512x512_0_2_3 : S64x512x512.BroadcastsInDim S64x1x512x512 (![0, 2, 3] : Fin 3 → Fin S64x1x512x512.rank)
  dot_S16384x64x64_S16384x64x16_S16384x64x16_2_1_1_2_0_0_wf : DotDims.WF S16384x64x64 S16384x64x16 S16384x64x16 [2] [1] [1] [2] [0] [0]

variable [Facts₀]

def dot_S16384x64x64_S16384x64x16_S16384x64x16_2_1_1_2_0_0 : DotDims S16384x64x64 S16384x64x16 S16384x64x16 where
  lhsContracting := [2]
  rhsContracting := [1]
  lhsNonContracting := [1]
  rhsNonContracting := [2]
  lhsBatch := [0]
  rhsBatch := [0]
  wf := dot_S16384x64x64_S16384x64x16_S16384x64x16_2_1_1_2_0_0_wf

class Facts : Prop extends Facts₀ where

variable [Facts]
-- ==== Proof.LibCoveringStore.lean ====
/-
  A general fact about buffers written by covering stores.

  When a store writes a buffer whole — through the unit-stride rectangle at zero offsets of the buffer's own sizes —
  a later load of the whole buffer reads exactly that store's value, whatever was stored before it. Kernels that keep
  a running value in a scratch buffer (clear it, then repeatedly load, update and store it whole) meet this once per
  update: the list of earlier stores never has to be opened.
-/
import Idealize.ShloMosaic.Lib.Pipeline.Value

noncomputable section

open Idealize.ShloMosaic

namespace Cert.LibCoveringStore

/-- A load of a whole buffer right after a store that covered it whole reads what that store wrote, whatever was
    stored before: `L` is the list of the earlier stores, last first, and is left unopened. -/
theorem readCov_cons_whole {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

end Cert.LibCoveringStore

end
-- ==== Proof.BlockAcc.lean ====
/-
  One grid point of the kernel, as a function of the three blocks it is handed.

  The body keeps a running block `acc` of shape [16, 8, 128, 16] in its scratch buffer: it clears it, then for each
  of the 64 frames `t` in turn adds the outer product of the frame's [16, 8, 128] slice of the first block (batch,
  row, column) with the [8, 128, 16] slice of the second block whose last coordinates are `16 t … 16 t + 15`
  (row, column, tap), and finally adds the third block along the batch axis and moves the batch axis inside.
  Every store to the scratch covers it whole, so what a later load of the scratch reads is exactly what the last store
  wrote; read in program order this gives, after `n` frames, the `n`-fold partial sum `partialSum … n` below, and
  at the end the block the body writes out, `pointBlock`. Everything here holds at any float instance.
-/
import proofs.«153475_j76046690943483_2_alg».proof.Proof.Gen.KernelIdeal.Frame
import Idealize.ShloMosaic.Lib.Pipeline.Value
import proofs.«153475_j76046690943483_2_alg».proof.Proof.LibCoveringStore
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.ValueIdx

namespace Cert.KernelIdeal.Body

open Cert.KernelIdeal Cert.KernelIdeal.Gen Cert.LibCoveringStore

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Frame `t` of the first block: its [16, 1, 8, 128] slice at second coordinate `t`. -/
def frame (x0 : Vec F S16x64x8x128 .f32) (t : Fin 64) : Vec F S16x1x8x128 .f32 :=
  fun j => x0 (ix4 (j 0) t (j 2) (j 3))

/-- The taps of frame `t` in the second block: its [8, 128, 16] slice at last coordinates `16 t + u`. -/
def taps (x1 : Vec F S8x128x1024 .f32) (t : Fin 64) : Vec F S8x128x16 .f32 :=
  fun j => x1 (ix3 (j 0) (j 1) ⟨16 * t.val + (j 2).val, by
    have h2 : (j 2).val < 16 := (j 2).isLt
    have ht : t.val < 64 := t.isLt
    omega⟩)

/-- A unit-stride load of the first block at offsets (0, t, 0, 0) reads frame `t`. -/
theorem ld_frame (x0 : Vec F S16x64x8x128 .f32) (t : Nat) (ht : t < 64)
    (inb : ∀ a, (![0, t, 0, 0] : Fin 4 → Nat) a + S16x1x8x128.size a ≤ S16x64x8x128.size a) :
    View.ld x0 (Rect.unit (s := S16x64x8x128) ![0, t, 0, 0] S16x1x8x128.size inb) = frame x0 ⟨t, ht⟩ := by
  funext j
  show x0 _ = x0 _
  refine congrArg x0 (funext fun a => Fin.ext ?_)
  have h1 : (j 1).val < 1 := (j 1).isLt
  match a with
  | ⟨0, _⟩ => show 0 + 1 * (j 0).val = (j 0).val; omega
  | ⟨1, _⟩ => show t + 1 * (j 1).val = t; omega
  | ⟨2, _⟩ => show 0 + 1 * (j 2).val = (j 2).val; omega
  | ⟨3, _⟩ => show 0 + 1 * (j 3).val = (j 3).val; omega

/-- A unit-stride load of the second block at offsets (0, 0, 16 t) reads the taps of frame `t`. -/
theorem ld_taps (x1 : Vec F S8x128x1024 .f32) (t : Nat) (ht : t < 64)
    (inb : ∀ a, (![0, 0, 16 * t] : Fin 3 → Nat) a + S8x128x16.size a ≤ S8x128x1024.size a) :
    View.ld x1 (Rect.unit (s := S8x128x1024) ![0, 0, 16 * t] S8x128x16.size inb) = taps x1 ⟨t, ht⟩ := by
  funext j
  show x1 _ = x1 _
  refine congrArg x1 (funext fun a => Fin.ext ?_)
  match a with
  | ⟨0, _⟩ => show 0 + 1 * (j 0).val = (j 0).val; omega
  | ⟨1, _⟩ => show 0 + 1 * (j 1).val = (j 1).val; omega
  | ⟨2, _⟩ => show 16 * t + 1 * (j 2).val = 16 * t + (j 2).val; omega

/-- The running block after the first `n` frames: the cleared block, then one multiply-add per frame in order. -/
def partialSum (x0 : Vec F S16x64x8x128 .f32) (x1 : Vec F S8x128x1024 .f32) :
    (n : Nat) → n ≤ 64 → FVec F S16x8x128x16 .f32
  | 0, _ => k0_pay1
  | n + 1, h => k0_pay2 (frame x0 ⟨n, h⟩) (taps x1 ⟨n, h⟩) (partialSum x0 x1 n (Nat.le_of_succ_le h))

/-- What the body writes out: the third block added to the full sum along the batch axis, batch axis moved inside. -/
def pointBlock (x0 : Vec F S16x64x8x128 .f32) (x1 : Vec F S8x128x1024 .f32) (x2 : Vec F S8x128x16 .f32) :
    FVec F S8x128x16x16 .f32 :=
  k0_pay130 x2 (partialSum x0 x1 64 (Nat.le_refl 64))

/-! ## The scratch buffer, load by load

`level n`: the load of the scratch that follows the `n`-th frame's store reads `partialSum … n`. Each is the
previous one, the fact that the store just before covered the buffer, and the two slice loads of that frame. -/

theorem level0 (c : Dev nD) (arg6 : Memref sig .tc .vmem S16x8x128x16 .f32)
    (x0 : Vec F S16x64x8x128 .f32) (x1 : Vec F S8x128x1024 .f32) :
    kernelRun0_A.sl.v8 (F := F) c arg6 = partialSum x0 x1 0 (by omega) := by
  delta kernelRun0_A.sl.v8 kernelRun0_A.sl.HS0_1
  rw [View.readCov_unit_zero _ hz4]
  rfl

theorem level1 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v22 (F := F) c arg2 harg2 arg3 harg3 arg6 x0 x1 = partialSum x0 x1 1 (by omega) := by
  delta kernelRun0_A.sl.v22 kernelRun0_A.sl.HS0_2
  rw [readCov_cons_whole _ hz4, level0]
  simp only [View.readAt_eq_ld, harg2.read_unread, harg3.read_unread]
  rw [ld_frame x0 0 (by omega), ld_taps x1 0 (by omega)]
  rfl
theorem level2 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v36 (F := F) c arg2 harg2 arg3 harg3 arg6 x0 x1 = partialSum x0 x1 2 (by omega) := by
  delta kernelRun0_A.sl.v36 kernelRun0_A.sl.HS0_3 kernelRun0_A.sl.r kernelRun0_A.sl.r_1
  rw [readCov_cons_whole _ hz4, level1]
  simp only [View.readAt_eq_ld, harg2.read_unread, harg3.read_unread]
  rw [ld_frame x0 1 (by omega), ld_taps x1 1 (by omega)]
  rfl
theorem level3 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v50 (F := F) c arg2 harg2 arg3 harg3 arg6 x0 x1 = partialSum x0 x1 3 (by omega) := by
  delta kernelRun0_A.sl.v50 kernelRun0_A.sl.HS0_4
  rw [readCov_cons_whole _ hz4, level2]
  simp only [View.readAt_eq_ld, harg2.read_unread, harg3.read_unread]
  rw [ld_frame x0 2 (by omega), ld_taps x1 2 (by omega)]
  rfl
theorem level4 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v64 (F := F) c arg2 harg2 arg3 harg3 arg6 x0 x1 = partialSum x0 x1 4 (by omega) := by
  delta kernelRun0_A.sl.v64 kernelRun0_A.sl.HS0_5 kernelRun0_A.sl.r_2 kernelRun0_A.sl.r_3
  rw [readCov_cons_whole _ hz4, level3]
  simp only [View.readAt_eq_ld, harg2.read_unread, harg3.read_unread]
  rw [ld_frame x0 3 (by omega), ld_taps x1 3 (by omega)]
  rfl
theorem level5 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v78 (F := F) c arg2 harg2 arg3 harg3 arg6 x0 x1 = partialSum x0 x1 5 (by omega) := by
  delta kernelRun0_A.sl.v78 kernelRun0_A.sl.HS0_6
  rw [readCov_cons_whole _ hz4, level4]
  simp only [View.readAt_eq_ld, harg2.read_unread, harg3.read_unread]
  rw [ld_frame x0 4 (by omega), ld_taps x1 4 (by omega)]
  rfl
theorem level6 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v92 (F := F) c arg2 harg2 arg3 harg3 arg6 x0 x1 = partialSum x0 x1 6 (by omega) := by
  delta kernelRun0_A.sl.v92 kernelRun0_A.sl.HS0_7 kernelRun0_A.sl.r_4 kernelRun0_A.sl.r_5
  rw [readCov_cons_whole _ hz4, level5]
  simp only [View.readAt_eq_ld, harg2.read_unread, harg3.read_unread]
  rw [ld_frame x0 5 (by omega), ld_taps x1 5 (by omega)]
  rfl
theorem level7 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v106 (F := F) c arg2 harg2 arg3 harg3 arg6 x0 x1 = partialSum x0 x1 7 (by omega) := by
  delta kernelRun0_A.sl.v106 kernelRun0_A.sl.HS0_8
  rw [readCov_cons_whole _ hz4, level6]
  simp only [View.readAt_eq_ld, harg2.read_unread, harg3.read_unread]
  rw [ld_frame x0 6 (by omega), ld_taps x1 6 (by omega)]
  rfl
theorem level8 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v120 (F := F) c arg2 harg2 arg3 harg3 arg6 x0 x1 = partialSum x0 x1 8 (by omega) := by
  delta kernelRun0_A.sl.v120 kernelRun0_A.sl.HS0_9 kernelRun0_A.sl.r_6 kernelRun0_A.sl.r_7
  rw [readCov_cons_whole _ hz4, level7]
  simp only [View.readAt_eq_ld, harg2.read_unread, harg3.read_unread]
  rw [ld_frame x0 7 (by omega), ld_taps x1 7 (by omega)]
  rfl
theorem level9 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v134 (F := F) c arg2 harg2 arg3 harg3 arg6 x0 x1 = partialSum x0 x1 9 (by omega) := by
  delta kernelRun0_A.sl.v134 kernelRun0_A.sl.HS0_10
  rw [readCov_cons_whole _ hz4, level8]
  simp only [View.readAt_eq_ld, harg2.read_unread, harg3.read_unread]
  rw [ld_frame x0 8 (by omega), ld_taps x1 8 (by omega)]
  rfl
theorem level10 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v148 (F := F) c arg2 harg2 arg3 harg3 arg6 x0 x1 = partialSum x0 x1 10 (by omega) := by
  delta kernelRun0_A.sl.v148 kernelRun0_A.sl.HS0_11 kernelRun0_A.sl.r_8 kernelRun0_A.sl.r_9
  rw [readCov_cons_whole _ hz4, level9]
  simp only [View.readAt_eq_ld, harg2.read_unread, harg3.read_unread]
  rw [ld_frame x0 9 (by omega), ld_taps x1 9 (by omega)]
  rfl
theorem level11 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v162 (F := F) c arg2 harg2 arg3 harg3 arg6 x0 x1 = partialSum x0 x1 11 (by omega) := by
  delta kernelRun0_A.sl.v162 kernelRun0_A.sl.HS0_12
  rw [readCov_cons_whole _ hz4, level10]
  simp only [View.readAt_eq_ld, harg2.read_unread, harg3.read_unread]
  rw [ld_frame x0 10 (by omega), ld_taps x1 10 (by omega)]
  rfl
theorem level12 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v176 (F := F) c arg2 harg2 arg3 harg3 arg6 x0 x1 = partialSum x0 x1 12 (by omega) := by
  delta kernelRun0_A.sl.v176 kernelRun0_A.sl.HS0_13 kernelRun0_A.sl.r_10 kernelRun0_A.sl.r_11
  rw [readCov_cons_whole _ hz4, level11]
  simp only [View.readAt_eq_ld, harg2.read_unread, harg3.read_unread]
  rw [ld_frame x0 11 (by omega), ld_taps x1 11 (by omega)]
  rfl
theorem level13 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v190 (F := F) c arg2 harg2 arg3 harg3 arg6 x0 x1 = partialSum x0 x1 13 (by omega) := by
  delta kernelRun0_A.sl.v190 kernelRun0_A.sl.HS0_14
  rw [readCov_cons_whole _ hz4, level12]
  simp only [View.readAt_eq_ld, harg2.read_unread, harg3.read_unread]
  rw [ld_frame x0 12 (by omega), ld_taps x1 12 (by omega)]
  rfl
theorem level14 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v204 (F := F) c arg2 harg2 arg3 harg3 arg6 x0 x1 = partialSum x0 x1 14 (by omega) := by
  delta kernelRun0_A.sl.v204 kernelRun0_A.sl.HS0_15 kernelRun0_A.sl.r_12 kernelRun0_A.sl.r_13
  rw [readCov_cons_whole _ hz4, level13]
  simp only [View.readAt_eq_ld, harg2.read_unread, harg3.read_unread]
  rw [ld_frame x0 13 (by omega), ld_taps x1 13 (by omega)]
  rfl
theorem level15 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v218 (F := F) c arg2 harg2 arg3 harg3 arg6 x0 x1 = partialSum x0 x1 15 (by omega) := by
  delta kernelRun0_A.sl.v218 kernelRun0_A.sl.HS0_16
  rw [readCov_cons_whole _ hz4, level14]
  simp only [View.readAt_eq_ld, harg2.read_unread, harg3.read_unread]
  rw [ld_frame x0 14 (by omega), ld_taps x1 14 (by omega)]
  rfl
theorem level16 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v232 (F := F) c arg2 harg2 arg3 harg3 arg6 x0 x1 = partialSum x0 x1 16 (by omega) := by
  delta kernelRun0_A.sl.v232 kernelRun0_A.sl.HS0_17 kernelRun0_A.sl.r_14 kernelRun0_A.sl.r_15
  rw [readCov_cons_whole _ hz4, level15]
  simp only [View.readAt_eq_ld, harg2.read_unread, harg3.read_unread]
  rw [ld_frame x0 15 (by omega), ld_taps x1 15 (by omega)]
  rfl
theorem level17 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v246 (F := F) c arg2 harg2 arg3 harg3 arg6 x0 x1 = partialSum x0 x1 17 (by omega) := by
  delta kernelRun0_A.sl.v246 kernelRun0_A.sl.HS0_18
  rw [readCov_cons_whole _ hz4, level16]
  simp only [View.readAt_eq_ld, harg2.read_unread, harg3.read_unread]
  rw [ld_frame x0 16 (by omega), ld_taps x1 16 (by omega)]
  rfl
theorem level18 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v260 (F := F) c arg2 harg2 arg3 harg3 arg6 x0 x1 = partialSum x0 x1 18 (by omega) := by
  delta kernelRun0_A.sl.v260 kernelRun0_A.sl.HS0_19 kernelRun0_A.sl.r_16 kernelRun0_A.sl.r_17
  rw [readCov_cons_whole _ hz4, level17]
  simp only [View.readAt_eq_ld, harg2.read_unread, harg3.read_unread]
  rw [ld_frame x0 17 (by omega), ld_taps x1 17 (by omega)]
  rfl
theorem level19 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v274 (F := F) c arg2 harg2 arg3 harg3 arg6 x0 x1 = partialSum x0 x1 19 (by omega) := by
  delta kernelRun0_A.sl.v274 kernelRun0_A.sl.HS0_20
  rw [readCov_cons_whole _ hz4, level18]
  simp only [View.readAt_eq_ld, harg2.read_unread, harg3.read_unread]
  rw [ld_frame x0 18 (by omega), ld_taps x1 18 (by omega)]
  rfl
theorem level20 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v288 (F := F) c arg2 harg2 arg3 harg3 arg6 x0 x1 = partialSum x0 x1 20 (by omega) := by
  delta kernelRun0_A.sl.v288 kernelRun0_A.sl.HS0_21 kernelRun0_A.sl.r_18 kernelRun0_A.sl.r_19
  rw [readCov_cons_whole _ hz4, level19]
  simp only [View.readAt_eq_ld, harg2.read_unread, harg3.read_unread]
  rw [ld_frame x0 19 (by omega), ld_taps x1 19 (by omega)]
  rfl
theorem level21 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v302 (F := F) c arg2 harg2 arg3 harg3 arg6 x0 x1 = partialSum x0 x1 21 (by omega) := by
  delta kernelRun0_A.sl.v302 kernelRun0_A.sl.HS0_22
  rw [readCov_cons_whole _ hz4, level20]
  simp only [View.readAt_eq_ld, harg2.read_unread, harg3.read_unread]
  rw [ld_frame x0 20 (by omega), ld_taps x1 20 (by omega)]
  rfl
theorem level22 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v316 (F := F) c arg2 harg2 arg3 harg3 arg6 x0 x1 = partialSum x0 x1 22 (by omega) := by
  delta kernelRun0_A.sl.v316 kernelRun0_A.sl.HS0_23 kernelRun0_A.sl.r_20 kernelRun0_A.sl.r_21
  rw [readCov_cons_whole _ hz4, level21]
  simp only [View.readAt_eq_ld, harg2.read_unread, harg3.read_unread]
  rw [ld_frame x0 21 (by omega), ld_taps x1 21 (by omega)]
  rfl
theorem level23 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v330 (F := F) c arg2 harg2 arg3 harg3 arg6 x0 x1 = partialSum x0 x1 23 (by omega) := by
  delta kernelRun0_A.sl.v330 kernelRun0_A.sl.HS0_24
  rw [readCov_cons_whole _ hz4, level22]
  simp only [View.readAt_eq_ld, harg2.read_unread, harg3.read_unread]
  rw [ld_frame x0 22 (by omega), ld_taps x1 22 (by omega)]
  rfl
theorem level24 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v344 (F := F) c arg2 harg2 arg3 harg3 arg6 x0 x1 = partialSum x0 x1 24 (by omega) := by
  delta kernelRun0_A.sl.v344 kernelRun0_A.sl.HS0_25 kernelRun0_A.sl.r_22 kernelRun0_A.sl.r_23
  rw [readCov_cons_whole _ hz4, level23]
  simp only [View.readAt_eq_ld, harg2.read_unread, harg3.read_unread]
  rw [ld_frame x0 23 (by omega), ld_taps x1 23 (by omega)]
  rfl
theorem level25 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v358 (F := F) c arg2 harg2 arg3 harg3 arg6 x0 x1 = partialSum x0 x1 25 (by omega) := by
  delta kernelRun0_A.sl.v358 kernelRun0_A.sl.HS0_26
  rw [readCov_cons_whole _ hz4, level24]
  simp only [View.readAt_eq_ld, harg2.read_unread, harg3.read_unread]
  rw [ld_frame x0 24 (by omega), ld_taps x1 24 (by omega)]
  rfl
theorem level26 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v372 (F := F) c arg2 harg2 arg3 harg3 arg6 x0 x1 = partialSum x0 x1 26 (by omega) := by
  delta kernelRun0_A.sl.v372 kernelRun0_A.sl.HS0_27 kernelRun0_A.sl.r_24 kernelRun0_A.sl.r_25
  rw [readCov_cons_whole _ hz4, level25]
  simp only [View.readAt_eq_ld, harg2.read_unread, harg3.read_unread]
  rw [ld_frame x0 25 (by omega), ld_taps x1 25 (by omega)]
  rfl
theorem level27 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v386 (F := F) c arg2 harg2 arg3 harg3 arg6 x0 x1 = partialSum x0 x1 27 (by omega) := by
  delta kernelRun0_A.sl.v386 kernelRun0_A.sl.HS0_28
  rw [readCov_cons_whole _ hz4, level26]
  simp only [View.readAt_eq_ld, harg2.read_unread, harg3.read_unread]
  rw [ld_frame x0 26 (by omega), ld_taps x1 26 (by omega)]
  rfl
theorem level28 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v400 (F := F) c arg2 harg2 arg3 harg3 arg6 x0 x1 = partialSum x0 x1 28 (by omega) := by
  delta kernelRun0_A.sl.v400 kernelRun0_A.sl.HS0_29 kernelRun0_A.sl.r_26 kernelRun0_A.sl.r_27
  rw [readCov_cons_whole _ hz4, level27]
  simp only [View.readAt_eq_ld, harg2.read_unread, harg3.read_unread]
  rw [ld_frame x0 27 (by omega), ld_taps x1 27 (by omega)]
  rfl
theorem level29 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v414 (F := F) c arg2 harg2 arg3 harg3 arg6 x0 x1 = partialSum x0 x1 29 (by omega) := by
  delta kernelRun0_A.sl.v414 kernelRun0_A.sl.HS0_30
  rw [readCov_cons_whole _ hz4, level28]
  simp only [View.readAt_eq_ld, harg2.read_unread, harg3.read_unread]
  rw [ld_frame x0 28 (by omega), ld_taps x1 28 (by omega)]
  rfl
theorem level30 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v428 (F := F) c arg2 harg2 arg3 harg3 arg6 x0 x1 = partialSum x0 x1 30 (by omega) := by
  delta kernelRun0_A.sl.v428 kernelRun0_A.sl.HS0_31 kernelRun0_A.sl.r_28 kernelRun0_A.sl.r_29
  rw [readCov_cons_whole _ hz4, level29]
  simp only [View.readAt_eq_ld, harg2.read_unread, harg3.read_unread]
  rw [ld_frame x0 29 (by omega), ld_taps x1 29 (by omega)]
  rfl
theorem level31 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v442 (F := F) c arg2 harg2 arg3 harg3 arg6 x0 x1 = partialSum x0 x1 31 (by omega) := by
  delta kernelRun0_A.sl.v442 kernelRun0_A.sl.HS0_32
  rw [readCov_cons_whole _ hz4, level30]
  simp only [View.readAt_eq_ld, harg2.read_unread, harg3.read_unread]
  rw [ld_frame x0 30 (by omega), ld_taps x1 30 (by omega)]
  rfl
theorem level32 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v456 (F := F) c arg2 harg2 arg3 harg3 arg6 x0 x1 = partialSum x0 x1 32 (by omega) := by
  delta kernelRun0_A.sl.v456 kernelRun0_A.sl.HS0_33 kernelRun0_A.sl.r_30 kernelRun0_A.sl.r_31
  rw [readCov_cons_whole _ hz4, level31]
  simp only [View.readAt_eq_ld, harg2.read_unread, harg3.read_unread]
  rw [ld_frame x0 31 (by omega), ld_taps x1 31 (by omega)]
  rfl
theorem level33 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v470 (F := F) c arg2 harg2 arg3 harg3 arg6 x0 x1 = partialSum x0 x1 33 (by omega) := by
  delta kernelRun0_A.sl.v470 kernelRun0_A.sl.HS0_34
  rw [readCov_cons_whole _ hz4, level32]
  simp only [View.readAt_eq_ld, harg2.read_unread, harg3.read_unread]
  rw [ld_frame x0 32 (by omega), ld_taps x1 32 (by omega)]
  rfl
theorem level34 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v484 (F := F) c arg2 harg2 arg3 harg3 arg6 x0 x1 = partialSum x0 x1 34 (by omega) := by
  delta kernelRun0_A.sl.v484 kernelRun0_A.sl.HS0_35 kernelRun0_A.sl.r_32 kernelRun0_A.sl.r_33
  rw [readCov_cons_whole _ hz4, level33]
  simp only [View.readAt_eq_ld, harg2.read_unread, harg3.read_unread]
  rw [ld_frame x0 33 (by omega), ld_taps x1 33 (by omega)]
  rfl
theorem level35 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v498 (F := F) c arg2 harg2 arg3 harg3 arg6 x0 x1 = partialSum x0 x1 35 (by omega) := by
  delta kernelRun0_A.sl.v498 kernelRun0_A.sl.HS0_36
  rw [readCov_cons_whole _ hz4, level34]
  simp only [View.readAt_eq_ld, harg2.read_unread, harg3.read_unread]
  rw [ld_frame x0 34 (by omega), ld_taps x1 34 (by omega)]
  rfl
theorem level36 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v512 (F := F) c arg2 harg2 arg3 harg3 arg6 x0 x1 = partialSum x0 x1 36 (by omega) := by
  delta kernelRun0_A.sl.v512 kernelRun0_A.sl.HS0_37 kernelRun0_A.sl.r_34 kernelRun0_A.sl.r_35
  rw [readCov_cons_whole _ hz4, level35]
  simp only [View.readAt_eq_ld, harg2.read_unread, harg3.read_unread]
  rw [ld_frame x0 35 (by omega), ld_taps x1 35 (by omega)]
  rfl
theorem level37 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v526 (F := F) c arg2 harg2 arg3 harg3 arg6 x0 x1 = partialSum x0 x1 37 (by omega) := by
  delta kernelRun0_A.sl.v526 kernelRun0_A.sl.HS0_38
  rw [readCov_cons_whole _ hz4, level36]
  simp only [View.readAt_eq_ld, harg2.read_unread, harg3.read_unread]
  rw [ld_frame x0 36 (by omega), ld_taps x1 36 (by omega)]
  rfl
theorem level38 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v540 (F := F) c arg2 harg2 arg3 harg3 arg6 x0 x1 = partialSum x0 x1 38 (by omega) := by
  delta kernelRun0_A.sl.v540 kernelRun0_A.sl.HS0_39 kernelRun0_A.sl.r_36 kernelRun0_A.sl.r_37
  rw [readCov_cons_whole _ hz4, level37]
  simp only [View.readAt_eq_ld, harg2.read_unread, harg3.read_unread]
  rw [ld_frame x0 37 (by omega), ld_taps x1 37 (by omega)]
  rfl
theorem level39 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v554 (F := F) c arg2 harg2 arg3 harg3 arg6 x0 x1 = partialSum x0 x1 39 (by omega) := by
  delta kernelRun0_A.sl.v554 kernelRun0_A.sl.HS0_40
  rw [readCov_cons_whole _ hz4, level38]
  simp only [View.readAt_eq_ld, harg2.read_unread, harg3.read_unread]
  rw [ld_frame x0 38 (by omega), ld_taps x1 38 (by omega)]
  rfl
theorem level40 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v568 (F := F) c arg2 harg2 arg3 harg3 arg6 x0 x1 = partialSum x0 x1 40 (by omega) := by
  delta kernelRun0_A.sl.v568 kernelRun0_A.sl.HS0_41 kernelRun0_A.sl.r_38 kernelRun0_A.sl.r_39
  rw [readCov_cons_whole _ hz4, level39]
  simp only [View.readAt_eq_ld, harg2.read_unread, harg3.read_unread]
  rw [ld_frame x0 39 (by omega), ld_taps x1 39 (by omega)]
  rfl
theorem level41 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v582 (F := F) c arg2 harg2 arg3 harg3 arg6 x0 x1 = partialSum x0 x1 41 (by omega) := by
  delta kernelRun0_A.sl.v582 kernelRun0_A.sl.HS0_42
  rw [readCov_cons_whole _ hz4, level40]
  simp only [View.readAt_eq_ld, harg2.read_unread, harg3.read_unread]
  rw [ld_frame x0 40 (by omega), ld_taps x1 40 (by omega)]
  rfl
theorem level42 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v596 (F := F) c arg2 harg2 arg3 harg3 arg6 x0 x1 = partialSum x0 x1 42 (by omega) := by
  delta kernelRun0_A.sl.v596 kernelRun0_A.sl.HS0_43 kernelRun0_A.sl.r_40 kernelRun0_A.sl.r_41
  rw [readCov_cons_whole _ hz4, level41]
  simp only [View.readAt_eq_ld, harg2.read_unread, harg3.read_unread]
  rw [ld_frame x0 41 (by omega), ld_taps x1 41 (by omega)]
  rfl
theorem level43 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v610 (F := F) c arg2 harg2 arg3 harg3 arg6 x0 x1 = partialSum x0 x1 43 (by omega) := by
  delta kernelRun0_A.sl.v610 kernelRun0_A.sl.HS0_44
  rw [readCov_cons_whole _ hz4, level42]
  simp only [View.readAt_eq_ld, harg2.read_unread, harg3.read_unread]
  rw [ld_frame x0 42 (by omega), ld_taps x1 42 (by omega)]
  rfl
theorem level44 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v624 (F := F) c arg2 harg2 arg3 harg3 arg6 x0 x1 = partialSum x0 x1 44 (by omega) := by
  delta kernelRun0_A.sl.v624 kernelRun0_A.sl.HS0_45 kernelRun0_A.sl.r_42 kernelRun0_A.sl.r_43
  rw [readCov_cons_whole _ hz4, level43]
  simp only [View.readAt_eq_ld, harg2.read_unread, harg3.read_unread]
  rw [ld_frame x0 43 (by omega), ld_taps x1 43 (by omega)]
  rfl
theorem level45 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v638 (F := F) c arg2 harg2 arg3 harg3 arg6 x0 x1 = partialSum x0 x1 45 (by omega) := by
  delta kernelRun0_A.sl.v638 kernelRun0_A.sl.HS0_46
  rw [readCov_cons_whole _ hz4, level44]
  simp only [View.readAt_eq_ld, harg2.read_unread, harg3.read_unread]
  rw [ld_frame x0 44 (by omega), ld_taps x1 44 (by omega)]
  rfl
theorem level46 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v652 (F := F) c arg2 harg2 arg3 harg3 arg6 x0 x1 = partialSum x0 x1 46 (by omega) := by
  delta kernelRun0_A.sl.v652 kernelRun0_A.sl.HS0_47 kernelRun0_A.sl.r_44 kernelRun0_A.sl.r_45
  rw [readCov_cons_whole _ hz4, level45]
  simp only [View.readAt_eq_ld, harg2.read_unread, harg3.read_unread]
  rw [ld_frame x0 45 (by omega), ld_taps x1 45 (by omega)]
  rfl
theorem level47 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v666 (F := F) c arg2 harg2 arg3 harg3 arg6 x0 x1 = partialSum x0 x1 47 (by omega) := by
  delta kernelRun0_A.sl.v666 kernelRun0_A.sl.HS0_48
  rw [readCov_cons_whole _ hz4, level46]
  simp only [View.readAt_eq_ld, harg2.read_unread, harg3.read_unread]
  rw [ld_frame x0 46 (by omega), ld_taps x1 46 (by omega)]
  rfl
theorem level48 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v680 (F := F) c arg2 harg2 arg3 harg3 arg6 x0 x1 = partialSum x0 x1 48 (by omega) := by
  delta kernelRun0_A.sl.v680 kernelRun0_A.sl.HS0_49 kernelRun0_A.sl.r_46 kernelRun0_A.sl.r_47
  rw [readCov_cons_whole _ hz4, level47]
  simp only [View.readAt_eq_ld, harg2.read_unread, harg3.read_unread]
  rw [ld_frame x0 47 (by omega), ld_taps x1 47 (by omega)]
  rfl
theorem level49 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v694 (F := F) c arg2 harg2 arg3 harg3 arg6 x0 x1 = partialSum x0 x1 49 (by omega) := by
  delta kernelRun0_A.sl.v694 kernelRun0_A.sl.HS0_50
  rw [readCov_cons_whole _ hz4, level48]
  simp only [View.readAt_eq_ld, harg2.read_unread, harg3.read_unread]
  rw [ld_frame x0 48 (by omega), ld_taps x1 48 (by omega)]
  rfl
theorem level50 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v708 (F := F) c arg2 harg2 arg3 harg3 arg6 x0 x1 = partialSum x0 x1 50 (by omega) := by
  delta kernelRun0_A.sl.v708 kernelRun0_A.sl.HS0_51 kernelRun0_A.sl.r_48 kernelRun0_A.sl.r_49
  rw [readCov_cons_whole _ hz4, level49]
  simp only [View.readAt_eq_ld, harg2.read_unread, harg3.read_unread]
  rw [ld_frame x0 49 (by omega), ld_taps x1 49 (by omega)]
  rfl
theorem level51 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v722 (F := F) c arg2 harg2 arg3 harg3 arg6 x0 x1 = partialSum x0 x1 51 (by omega) := by
  delta kernelRun0_A.sl.v722 kernelRun0_A.sl.HS0_52
  rw [readCov_cons_whole _ hz4, level50]
  simp only [View.readAt_eq_ld, harg2.read_unread, harg3.read_unread]
  rw [ld_frame x0 50 (by omega), ld_taps x1 50 (by omega)]
  rfl
theorem level52 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v736 (F := F) c arg2 harg2 arg3 harg3 arg6 x0 x1 = partialSum x0 x1 52 (by omega) := by
  delta kernelRun0_A.sl.v736 kernelRun0_A.sl.HS0_53 kernelRun0_A.sl.r_50 kernelRun0_A.sl.r_51
  rw [readCov_cons_whole _ hz4, level51]
  simp only [View.readAt_eq_ld, harg2.read_unread, harg3.read_unread]
  rw [ld_frame x0 51 (by omega), ld_taps x1 51 (by omega)]
  rfl
theorem level53 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v750 (F := F) c arg2 harg2 arg3 harg3 arg6 x0 x1 = partialSum x0 x1 53 (by omega) := by
  delta kernelRun0_A.sl.v750 kernelRun0_A.sl.HS0_54
  rw [readCov_cons_whole _ hz4, level52]
  simp only [View.readAt_eq_ld, harg2.read_unread, harg3.read_unread]
  rw [ld_frame x0 52 (by omega), ld_taps x1 52 (by omega)]
  rfl
theorem level54 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v764 (F := F) c arg2 harg2 arg3 harg3 arg6 x0 x1 = partialSum x0 x1 54 (by omega) := by
  delta kernelRun0_A.sl.v764 kernelRun0_A.sl.HS0_55 kernelRun0_A.sl.r_52 kernelRun0_A.sl.r_53
  rw [readCov_cons_whole _ hz4, level53]
  simp only [View.readAt_eq_ld, harg2.read_unread, harg3.read_unread]
  rw [ld_frame x0 53 (by omega), ld_taps x1 53 (by omega)]
  rfl
theorem level55 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v778 (F := F) c arg2 harg2 arg3 harg3 arg6 x0 x1 = partialSum x0 x1 55 (by omega) := by
  delta kernelRun0_A.sl.v778 kernelRun0_A.sl.HS0_56
  rw [readCov_cons_whole _ hz4, level54]
  simp only [View.readAt_eq_ld, harg2.read_unread, harg3.read_unread]
  rw [ld_frame x0 54 (by omega), ld_taps x1 54 (by omega)]
  rfl
theorem level56 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v792 (F := F) c arg2 harg2 arg3 harg3 arg6 x0 x1 = partialSum x0 x1 56 (by omega) := by
  delta kernelRun0_A.sl.v792 kernelRun0_A.sl.HS0_57 kernelRun0_A.sl.r_54 kernelRun0_A.sl.r_55
  rw [readCov_cons_whole _ hz4, level55]
  simp only [View.readAt_eq_ld, harg2.read_unread, harg3.read_unread]
  rw [ld_frame x0 55 (by omega), ld_taps x1 55 (by omega)]
  rfl
theorem level57 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v806 (F := F) c arg2 harg2 arg3 harg3 arg6 x0 x1 = partialSum x0 x1 57 (by omega) := by
  delta kernelRun0_A.sl.v806 kernelRun0_A.sl.HS0_58
  rw [readCov_cons_whole _ hz4, level56]
  simp only [View.readAt_eq_ld, harg2.read_unread, harg3.read_unread]
  rw [ld_frame x0 56 (by omega), ld_taps x1 56 (by omega)]
  rfl
theorem level58 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v820 (F := F) c arg2 harg2 arg3 harg3 arg6 x0 x1 = partialSum x0 x1 58 (by omega) := by
  delta kernelRun0_A.sl.v820 kernelRun0_A.sl.HS0_59 kernelRun0_A.sl.r_56 kernelRun0_A.sl.r_57
  rw [readCov_cons_whole _ hz4, level57]
  simp only [View.readAt_eq_ld, harg2.read_unread, harg3.read_unread]
  rw [ld_frame x0 57 (by omega), ld_taps x1 57 (by omega)]
  rfl
theorem level59 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v834 (F := F) c arg2 harg2 arg3 harg3 arg6 x0 x1 = partialSum x0 x1 59 (by omega) := by
  delta kernelRun0_A.sl.v834 kernelRun0_A.sl.HS0_60
  rw [readCov_cons_whole _ hz4, level58]
  simp only [View.readAt_eq_ld, harg2.read_unread, harg3.read_unread]
  rw [ld_frame x0 58 (by omega), ld_taps x1 58 (by omega)]
  rfl
theorem level60 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v848 (F := F) c arg2 harg2 arg3 harg3 arg6 x0 x1 = partialSum x0 x1 60 (by omega) := by
  delta kernelRun0_A.sl.v848 kernelRun0_A.sl.HS0_61 kernelRun0_A.sl.r_58 kernelRun0_A.sl.r_59
  rw [readCov_cons_whole _ hz4, level59]
  simp only [View.readAt_eq_ld, harg2.read_unread, harg3.read_unread]
  rw [ld_frame x0 59 (by omega), ld_taps x1 59 (by omega)]
  rfl
theorem level61 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v862 (F := F) c arg2 harg2 arg3 harg3 arg6 x0 x1 = partialSum x0 x1 61 (by omega) := by
  delta kernelRun0_A.sl.v862 kernelRun0_A.sl.HS0_62
  rw [readCov_cons_whole _ hz4, level60]
  simp only [View.readAt_eq_ld, harg2.read_unread, harg3.read_unread]
  rw [ld_frame x0 60 (by omega), ld_taps x1 60 (by omega)]
  rfl
theorem level62 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v876 (F := F) c arg2 harg2 arg3 harg3 arg6 x0 x1 = partialSum x0 x1 62 (by omega) := by
  delta kernelRun0_A.sl.v876 kernelRun0_A.sl.HS0_63 kernelRun0_A.sl.r_60 kernelRun0_A.sl.r_61
  rw [readCov_cons_whole _ hz4, level61]
  simp only [View.readAt_eq_ld, harg2.read_unread, harg3.read_unread]
  rw [ld_frame x0 61 (by omega), ld_taps x1 61 (by omega)]
  rfl
theorem level63 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v890 (F := F) c arg2 harg2 arg3 harg3 arg6 x0 x1 = partialSum x0 x1 63 (by omega) := by
  delta kernelRun0_A.sl.v890 kernelRun0_A.sl.HS0_64
  rw [readCov_cons_whole _ hz4, level62]
  simp only [View.readAt_eq_ld, harg2.read_unread, harg3.read_unread]
  rw [ld_frame x0 62 (by omega), ld_taps x1 62 (by omega)]
  rfl
theorem level64 (c : Dev nD) (arg2 : Memref sig .tc .vmem S16x64x8x128 .f32) (harg2 : arg2.IsWhole) (arg3 : Memref sig .tc .vmem S8x128x1024 .f32) (harg3 : arg3.IsWhole) (arg6 : Memref sig .tc .vmem S16x8x128x16 .f32) (x0 : Vec F S16x64x8x128 .f32) (x1 : Vec F S8x128x1024 .f32) :
    kernelRun0_A.sl.v902 (F := F) c arg2 harg2 arg3 harg3 arg6 x0 x1 = partialSum x0 x1 64 (by omega) := by
  delta kernelRun0_A.sl.v902 kernelRun0_A.sl.HS0_65 kernelRun0_A.sl.r_62 kernelRun0_A.sl.r_63
  rw [readCov_cons_whole _ hz4, level63]
  simp only [View.readAt_eq_ld, harg2.read_unread, harg3.read_unread]
  rw [ld_frame x0 63 (by omega), ld_taps x1 63 (by omega)]
  rfl

/-- The block one grid point leaves in the output's staging buffer is `pointBlock` of its three input blocks. -/
theorem out_eq (c : Dev nD) (i : grid0.Coords) (arg2 : Memref sig .tc .vmem S16x64x8x128 .f32) (harg2 : arg2.IsWhole)
    (arg3 : Memref sig .tc .vmem S8x128x1024 .f32) (harg3 : arg3.IsWhole)
    (arg4 : Memref sig .tc .vmem S8x128x16 .f32) (harg4 : arg4.IsWhole)
    (arg5 : Memref sig .tc .vmem S8x128x16x16 .f32) (harg5 : arg5.IsWhole)
    (arg6 : Memref sig .tc .vmem S16x8x128x16 .f32) (harg6 : arg6.IsWhole)
    (x0 : Vec F S16x64x8x128 .f32) (x1 : Vec F S8x128x1024 .f32) (x2 : Vec F S8x128x16 .f32) :
    out0_A_3 (F := F) c i arg2 harg2 arg3 harg3 arg4 harg4 arg5 harg5 arg6 harg6 x0 x1 x2 = pointBlock x0 x1 x2 := by
  unfold out0_A_3
  rw [View.read_writes_eq_canon _ _ _ (cover0_A_3 c i arg2 harg2 arg3 harg3 arg4 harg4 arg5 harg5 arg6 harg6 x0 x1 x2)]
  unfold kernelRun0_A
  dsimp only
  rw [View.canon_unit_zero hz4]
  delta kernelRun0_A.sl.r_64
  rw [level64]
  simp only [View.readAt_eq_ld, harg4.read_unread, View.ld_unit_zero (S := S8x128x16) hz3]
  rfl

end Cert.KernelIdeal.Body

end
-- ==== Proof.BlockValue.lean ====
/-
  The block one grid point writes, read at an index over the extended reals.

  With floats read as extended reals the multiply-add per frame is the exact one, so the running block after `n`
  frames, at (batch b, row r, column s, tap u), is the sum over the first `n` frames `t` of
  `x0[b, t, r, s] · x1[r, s, 16 t + u]`, taken in frame order from zero; the block written out, at (r, s, b, u),
  is the full sum plus `x2[r, s, u]`. No law beyond `0 + x = x` is used: the order of the additions is kept.
-/
import proofs.«153475_j76046690943483_2_alg».proof.Proof.BlockAcc
import Idealize.ShloMosaic.PureOps.Ideal.Laws

set_option maxRecDepth 16384

noncomputable section

open Idealize.ShloMosaic Idealize.ShloMosaic.TcCoe Idealize.SL.Sem
open Idealize.ShloMosaic.ValueIdx

namespace Cert.KernelIdeal.Body

open Cert.KernelIdeal Cert.KernelIdeal.Gen

variable {α : Type}

/-- A [16, 1, 8, 128] slice viewed [16, 8, 128], given a trailing unit axis and spread along it over 16 taps:
    at (b, r, s, u) it is the slice at (b, 0, r, s). -/
theorem spread_frame (y : S16x1x8x128.Idx → α) (h1 : S16x1x8x128.ShapeCasts S16x8x128)
    (h2 : S16x8x128.ShapeCasts S16x8x128x1) (h3 : S16x8x128x1.Broadcasts S16x8x128x16)
    (b : Fin 16) (r : Fin 8) (s : Fin 128) (u : Fin 16) :
    broadcastTo S16x8x128x16 (shapeCast S16x8x128x1 (shapeCast S16x8x128 y h1) h2) h3 (ix4 b r s u)
      = y (ix4 b (0 : Fin 1) r s) := by
  refine (broadcastTo_apply _ h3 (ix4 b r s u) (ix4 b r s (0 : Fin 1)) (fun a => ?_)).trans ?_
  · match a with
    | ⟨0, _⟩ => show b.val = if (16 : Nat) = 1 then 0 else b.val; rw [if_neg (by decide)]
    | ⟨1, _⟩ => show r.val = if (8 : Nat) = 1 then 0 else r.val; rw [if_neg (by decide)]
    | ⟨2, _⟩ => show s.val = if (128 : Nat) = 1 then 0 else s.val; rw [if_neg (by decide)]
    | ⟨3, _⟩ => show (0 : Nat) = if (1 : Nat) = 1 then 0 else u.val; rw [if_pos rfl]
  refine (shapeCast_apply _ h2 (ix4 b r s (0 : Fin 1)) (ix3 b r s) ?_).trans ?_
  · rewrite [Shape.rowMajor_val_three, Shape.rowMajor_val_four]
    show (b.val * 8 + r.val) * 128 + s.val = ((b.val * 8 + r.val) * 128 + s.val) * 1 + 0
    omega
  exact shapeCast_apply _ h1 (ix3 b r s) (ix4 b (0 : Fin 1) r s) (by
    rewrite [Shape.rowMajor_val_four, Shape.rowMajor_val_three]
    show ((b.val * 1 + 0) * 8 + r.val) * 128 + s.val = (b.val * 8 + r.val) * 128 + s.val
    omega)

/-- An [8, 128, 16] block given a leading unit axis and spread along it over 16 batch entries: at (b, r, s, u) it is
    the block at (r, s, u). -/
theorem spread_taps (w : S8x128x16.Idx → α) (h2 : S8x128x16.ShapeCasts S1x8x128x16)
    (h3 : S1x8x128x16.Broadcasts S16x8x128x16) (b : Fin 16) (r : Fin 8) (s : Fin 128) (u : Fin 16) :
    broadcastTo S16x8x128x16 (shapeCast S1x8x128x16 w h2) h3 (ix4 b r s u) = w (ix3 r s u) := by
  refine (broadcastTo_apply _ h3 (ix4 b r s u) (ix4 (0 : Fin 1) r s u) (fun a => ?_)).trans ?_
  · match a with
    | ⟨0, _⟩ => show (0 : Nat) = if (1 : Nat) = 1 then 0 else b.val; rw [if_pos rfl]
    | ⟨1, _⟩ => show r.val = if (8 : Nat) = 1 then 0 else r.val; rw [if_neg (by decide)]
    | ⟨2, _⟩ => show s.val = if (128 : Nat) = 1 then 0 else s.val; rw [if_neg (by decide)]
    | ⟨3, _⟩ => show u.val = if (16 : Nat) = 1 then 0 else u.val; rw [if_neg (by decide)]
  exact shapeCast_apply _ h2 (ix4 (0 : Fin 1) r s u) (ix3 r s u) (by
    rewrite [Shape.rowMajor_val_three, Shape.rowMajor_val_four]
    show (r.val * 128 + s.val) * 16 + u.val = (((0 : Nat) * 8 + r.val) * 128 + s.val) * 16 + u.val
    omega)

/-- Moving the batch axis of a [16, 8, 128, 16] block inside: the result at (r, s, b, u) is the block at (b, r, s, u). -/
theorem batch_inside (X : S16x8x128x16.Idx → α) (h : S16x8x128x16.Transposes [1, 2, 0, 3] S8x128x16x16)
    (b : Fin 16) (r : Fin 8) (s : Fin 128) (u : Fin 16) :
    transpose S8x128x16x16 [1, 2, 0, 3] X h (ix4 r s b u) = X (ix4 b r s u) :=
  transpose_apply [1, 2, 0, 3] X h (ix4 r s b u) (ix4 b r s u) (fun a => match a with
    | ⟨0, _⟩ => rfl
    | ⟨1, _⟩ => rfl
    | ⟨2, _⟩ => rfl
    | ⟨3, _⟩ => rfl)

/-- One frame's multiply-add, at an index. -/
theorem step_apply (y : Vec Ideal S16x1x8x128 .f32) (w : Vec Ideal S8x128x16 .f32) (acc : Vec Ideal S16x8x128x16 .f32)
    (b : Fin 16) (r : Fin 8) (s : Fin 128) (u : Fin 16) :
    k0_pay2 (F := Ideal) y w acc (ix4 b r s u) = acc (ix4 b r s u) + y (ix4 b (0 : Fin 1) r s) * w (ix3 r s u) := by
  unfold k0_pay2
  simp only [shapeCast_self]
  rw [addf_apply, mulf_apply, spread_frame, spread_taps]

/-- The term frame `t` contributes at (b, r, s, u). -/
def term (x0 : Vec Ideal S16x64x8x128 .f32) (x1 : Vec Ideal S8x128x1024 .f32)
    (b : Fin 16) (r : Fin 8) (s : Fin 128) (u : Fin 16) (t : Fin 64) : EReal :=
  x0 (ix4 b t r s) * x1 (ix3 r s ⟨16 * t.val + u.val, by have := t.isLt; have := u.isLt; omega⟩)

/-- The running block after `n` frames is the sum of the first `n` terms. -/
theorem partialSum_apply (x0 : Vec Ideal S16x64x8x128 .f32) (x1 : Vec Ideal S8x128x1024 .f32)
    (b : Fin 16) (r : Fin 8) (s : Fin 128) (u : Fin 16) :
    ∀ (n : Nat) (h : n ≤ 64), partialSum (F := Ideal) x0 x1 n h (ix4 b r s u)
      = ∑ k : Fin n, term x0 x1 b r s u ⟨k.val, Nat.lt_of_lt_of_le k.isLt h⟩
  | 0, _ => by
    show k0_pay1 (F := Ideal) (ix4 b r s u) = _
    unfold k0_pay1
    simp only [shapeCast_self, broadcast_apply]
    rw [Finset.univ_eq_empty, Finset.sum_empty]
    exact Ideal.ofBits_zero_f32
  | n + 1, h => by
    show k0_pay2 (F := Ideal) (frame x0 ⟨n, h⟩) (taps x1 ⟨n, h⟩) (partialSum x0 x1 n (Nat.le_of_succ_le h)) (ix4 b r s u) = _
    rw [step_apply, partialSum_apply x0 x1 b r s u n (Nat.le_of_succ_le h), Fin.sum_univ_castSucc]
    rfl

/-- The block written out, at (r, s, b, u): the sum over all 64 frames, plus the third block's entry. -/
theorem pointBlock_apply (x0 : Vec Ideal S16x64x8x128 .f32) (x1 : Vec Ideal S8x128x1024 .f32)
    (x2 : Vec Ideal S8x128x16 .f32) (b : Fin 16) (r : Fin 8) (s : Fin 128) (u : Fin 16) :
    pointBlock (F := Ideal) x0 x1 x2 (ix4 r s b u) = (∑ t : Fin 64, term x0 x1 b r s u t) + x2 (ix3 r s u) := by
  unfold pointBlock k0_pay130
  simp only [shapeCast_self]
  rw [batch_inside, addf_apply, spread_taps, partialSum_apply]

end Cert.KernelIdeal.Body

end
-- ==== Proof.ArrayValue.lean ====
/-
  From grid points to the whole result array of the kernel, over the extended reals.

  The grid has 16 × 4 points (i, j). Point (i, j) is handed rows `8 i … 8 i + 7` of the two weight-side arrays and
  batch entries `16 j … 16 j + 15`, rows `8 i … 8 i + 7` of the image array, and writes the block of the result at
  rows `8 i …`, all 128 columns, batch entries `16 j …`, all 16 taps. So every block written is the restriction
  of ONE function of the three arrays the kernel is launched on — `pixelSums` below: at (row p, column q, batch b,
  tap u) the sum over frames `t` of `A0[b, t, p, q] · A1[p, q, 16 t + u]`, plus `A2[p, q, u]` — and the 64 blocks
  tile the result array, which therefore ends holding that function.
-/
import proofs.«153475_j76046690943483_2_alg».proof.Proof.BlockValue

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Arr

open Cert.KernelIdeal Cert.KernelIdeal.Gen Cert.KernelIdeal.Body

variable (m : (ℓ : Loc nD τ sig) → Buf (Elt Ideal) ℓ) (ρ : Dev nD → PrngReg)

/-- What the kernel's result array holds, as a function of the three arrays it is launched on. -/
def pixelSums (A0 : Vec Ideal S64x64x128x128 .f32) (A1 : Vec Ideal S128x128x1024 .f32) (A2 : Vec Ideal S128x128x16 .f32) :
    Vec Ideal S128x128x64x16 .f32 :=
  fun i => (∑ t : Fin 64, A0 (ix4 (i 2) t (i 0) (i 1)) * A1 (ix3 (i 0) (i 1) ⟨16 * t.val + (i 3).val, by
      have h3 : (i 3).val < 16 := (i 3).isLt
      have ht : t.val < 64 := t.isLt
      omega⟩))
    + A2 (ix3 (i 0) (i 1) (i 3))

/-- The block a point writes, at any index of the block. -/
theorem pointBlock_at (X0 : Vec Ideal S16x64x8x128 .f32) (X1 : Vec Ideal S8x128x1024 .f32) (X2 : Vec Ideal S8x128x16 .f32)
    (j : S8x128x16x16.Idx) :
    pointBlock (F := Ideal) X0 X1 X2 j = (∑ t : Fin 64, term X0 X1 (j 2) (j 0) (j 1) (j 3) t) + X2 (ix3 (j 0) (j 1) (j 3)) :=
  (congrArg (pointBlock (F := Ideal) X0 X1 X2) (eq_ix4 j)).trans (pointBlock_apply X0 X1 X2 (j 2) (j 0) (j 1) (j 3))

/-- The printed index maps, decided over the grid: where each window's block sits relative to the output's. -/
theorem idx_facts : ∀ t : Fin cfg0.N,
    win0_3.index t (1 : Fin 4) = 0 ∧ win0_3.index t (3 : Fin 4) = 0
    ∧ win0_0.index t (0 : Fin 4) = win0_3.index t (2 : Fin 4) ∧ win0_0.index t (1 : Fin 4) = 0
    ∧ win0_0.index t (2 : Fin 4) = win0_3.index t (0 : Fin 4) ∧ win0_0.index t (3 : Fin 4) = 0
    ∧ win0_1.index t (0 : Fin 3) = win0_3.index t (0 : Fin 4) ∧ win0_1.index t (1 : Fin 3) = 0
    ∧ win0_1.index t (2 : Fin 3) = 0
    ∧ win0_2.index t (0 : Fin 3) = win0_3.index t (0 : Fin 4) ∧ win0_2.index t (1 : Fin 3) = 0
    ∧ win0_2.index t (2 : Fin 3) = 0 :=
  (by decide +kernel : ∀ t : Fin grid0.N, _)

/-- Every (row block, batch block) pair is some point's. -/
theorem idx_onto : ∀ (q0 : Fin 16) (q2 : Fin 4), ∃ t : Fin cfg0.N, win0_3.index t = ![q0.val, 0, q2.val, 0] :=
  (by decide +kernel : ∀ (q0 : Fin 16) (q2 : Fin 4), ∃ t : Fin grid0.N, win0_3.index t = ![q0.val, 0, q2.val, 0])

/-- What point `t` writes back is block `t` of `pixelSums` of the arrays as the kernel finds them. -/
theorem flushed_eq (c : Dev nD) (t : Fin cfg0.N) :
    (dats m 0 c).flushed 3 t
      = ((cfg0.win 3).blk t).view.read (Elt Ideal) (pixelSums (V m c main_arg0) (V m c main_v0) (V m c main_v1)) := by
  show (cfg0.win 3).cut (grid0.coords t) ((dats m 0 c).after 3 t) = _
  rw [after0_3]
  unfold outsAt0
  rw [out_eq]
  obtain ⟨e1, e3, f0, f1, f2, f3, g0, g1, g2, k0, k1, k2⟩ := idx_facts t
  funext j
  have hj0 : (j 0).val < 8 := (j 0).isLt
  have hj1 : (j 1).val < 128 := (j 1).isLt
  have hj2 : (j 2).val < 16 := (j 2).isLt
  have hj3 : (j 3).val < 16 := (j 3).isLt
  show pointBlock (F := Ideal) (iblk m c 0 t) (iblk m c 1 t) (iblk m c 2 t) j
    = pixelSums (V m c main_arg0) (V m c main_v0) (V m c main_v1) (((cfg0.win 3).blk t).view.emb j)
  refine (pointBlock_at (iblk m c 0 t) (iblk m c 1 t) (iblk m c 2 t) j).trans ?_
  unfold pixelSums term
  refine congrArg₂ (· + ·) (Finset.sum_congr rfl fun k _ => congrArg₂ (· * ·) ?_ ?_) ?_
  · show V m c main_arg0 (((cfg0.win 0).blk t).view.emb (ix4 (j 2) k (j 0) (j 1))) = _
    refine congrArg (V m c main_arg0) (funext fun a => Fin.ext ?_)
    match a with
    | ⟨0, _⟩ => show win0_0.index t (0 : Fin 4) * 16 + 1 * (j 2).val = win0_3.index t (2 : Fin 4) * 16 + 1 * (j 2).val; omega
    | ⟨1, _⟩ => show win0_0.index t (1 : Fin 4) * 64 + 1 * k.val = k.val; omega
    | ⟨2, _⟩ => show win0_0.index t (2 : Fin 4) * 8 + 1 * (j 0).val = win0_3.index t (0 : Fin 4) * 8 + 1 * (j 0).val; omega
    | ⟨3, _⟩ => show win0_0.index t (3 : Fin 4) * 128 + 1 * (j 1).val = win0_3.index t (1 : Fin 4) * 128 + 1 * (j 1).val; omega
  · show V m c main_v0 (((cfg0.win 1).blk t).view.emb (ix3 (j 0) (j 1) _)) = _
    refine congrArg (V m c main_v0) (funext fun a => Fin.ext ?_)
    match a with
    | ⟨0, _⟩ => show win0_1.index t (0 : Fin 3) * 8 + 1 * (j 0).val = win0_3.index t (0 : Fin 4) * 8 + 1 * (j 0).val; omega
    | ⟨1, _⟩ => show win0_1.index t (1 : Fin 3) * 128 + 1 * (j 1).val = win0_3.index t (1 : Fin 4) * 128 + 1 * (j 1).val; omega
    | ⟨2, _⟩ => show win0_1.index t (2 : Fin 3) * 1024 + 1 * (16 * k.val + (j 3).val) = 16 * k.val + (win0_3.index t (3 : Fin 4) * 16 + 1 * (j 3).val); omega
  · show V m c main_v1 (((cfg0.win 2).blk t).view.emb (ix3 (j 0) (j 1) (j 3))) = _
    refine congrArg (V m c main_v1) (funext fun a => Fin.ext ?_)
    match a with
    | ⟨0, _⟩ => show win0_2.index t (0 : Fin 3) * 8 + 1 * (j 0).val = win0_3.index t (0 : Fin 4) * 8 + 1 * (j 0).val; omega
    | ⟨1, _⟩ => show win0_2.index t (1 : Fin 3) * 128 + 1 * (j 1).val = win0_3.index t (1 : Fin 4) * 128 + 1 * (j 1).val; omega
    | ⟨2, _⟩ => show win0_2.index t (2 : Fin 3) * 16 + 1 * (j 3).val = win0_3.index t (3 : Fin 4) * 16 + 1 * (j 3).val; omega

/-- An index of the result array is in point `t`'s block iff each coordinate is in the block's range on its axis. -/
theorem mem_blk (t : Fin cfg0.N) (i : S128x128x64x16.Idx) :
    i ∈ ((cfg0.win 3).blk t).view.set ↔ ∀ a : Fin 4, win0_3.index t a * S8x128x16x16.size a ≤ (i a).val
      ∧ (i a).val < win0_3.index t a * S8x128x16x16.size a + S8x128x16x16.size a := by
  show i ∈ ((View.whole main_v2).slice (win0_3.rect t)).set ↔ _
  rw [View.set_slice_whole, Rect.mem_set_unit]
  exact Iff.rfl

/-- The blocks tile the result array: every index is in the block of the point with row block `p / 8` and batch
    block `b / 16`. -/
theorem cover (i : S128x128x64x16.Idx) :
    ∃ t : Fin cfg0.N, (cfg0.win 3).flush t = true ∧ i ∈ ((cfg0.win 3).blk t).view.set := by
  have hi0 : (i 0).val < 128 := (i 0).isLt
  have hi1 : (i 1).val < 128 := (i 1).isLt
  have hi2 : (i 2).val < 64 := (i 2).isLt
  have hi3 : (i 3).val < 16 := (i 3).isLt
  obtain ⟨t, ht⟩ := idx_onto ⟨(i 0).val / 8, by omega⟩ ⟨(i 2).val / 16, by omega⟩
  have q0 : win0_3.index t (0 : Fin 4) = (i 0).val / 8 := congrFun ht 0
  have q1 : win0_3.index t (1 : Fin 4) = 0 := congrFun ht 1
  have q2 : win0_3.index t (2 : Fin 4) = (i 2).val / 16 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 8 ≤ (i 0).val ∧ (i 0).val < win0_3.index t (0 : Fin 4) * 8 + 8; omega
  | ⟨1, _⟩ => show win0_3.index t (1 : Fin 4) * 128 ≤ (i 1).val ∧ (i 1).val < win0_3.index t (1 : Fin 4) * 128 + 128; omega
  | ⟨2, _⟩ => show win0_3.index t (2 : Fin 4) * 16 ≤ (i 2).val ∧ (i 2).val < win0_3.index t (2 : Fin 4) * 16 + 16; omega
  | ⟨3, _⟩ => show win0_3.index t (3 : Fin 4) * 16 ≤ (i 3).val ∧ (i 3).val < win0_3.index t (3 : Fin 4) * 16 + 16; omega

/-- The result array after the run. -/
theorem final (c : Dev nD) :
    (dats m 0 c).arrAt 3 cfg0.N = pixelSums (V m c main_arg0) (V m c main_v0) (V m c main_v1) :=
  (dats m 0 c).arrAt_eq_of_cover 3 _ (fun t _ => flushed_eq m c t) cover

end Cert.KernelIdeal.Arr

end
-- ==== Proof.Spec.lean ====
/-
  What both programs compute, stated once over literal shapes.

  For pixel (p, q) of the 128 × 128 grid, batch entry b and tap (d, e) of the 4 × 4 upscaling patch,
      pixels[p, q, b, d, e] = (Σ_t  image[b, t, p, q] · weights[128 p + q, t, 4 d + e]) + bias[128 p + q, 0, 4 d + e],
  the sum over the 64 frames taken as a finite sum of extended reals. The result is this array with the batch axis
  moved to the front and each pixel's patch laid out in the 512 × 512 output (`shuffle`): a transposition, a
  row-major regrouping, and a new unit axis — all three pure re-indexings, the same in both programs.
-/
import Idealize.ShloMosaic.PureOps.Ideal
import Idealize.ShloMosaic.Lib.ValueIdx

noncomputable section

open Idealize.ShloMosaic Idealize.ShloMosaic.ValueIdx

namespace Cert.Spec

abbrev SImage : Shape := ⟨4, ![64, 64, 128, 128]⟩
abbrev SWeights : Shape := ⟨3, ![16384, 64, 16]⟩
abbrev SBias : Shape := ⟨3, ![16384, 1, 16]⟩
abbrev SPixels : Shape := ⟨5, ![128, 128, 64, 4, 4]⟩
abbrev SShuffled : Shape := ⟨5, ![64, 128, 4, 128, 4]⟩
abbrev SFlat : Shape := ⟨3, ![64, 512, 512]⟩
abbrev SOut : Shape := ⟨4, ![64, 1, 512, 512]⟩

/-- The per-pixel products-and-sums, before the output layout. -/
def pixels (x0 : Vec Ideal SImage .f32) (x1 : Vec Ideal SWeights .f32) (x2 : Vec Ideal SBias .f32) :
    Vec Ideal SPixels .f32 :=
  fun i =>
    (∑ t : Fin 64, x0 (ix4 (i 2) t (i 0) (i 1))
        * x1 (ix3 (⟨128 * (i 0).val + (i 1).val, by
              have h0 : (i 0).val < 128 := (i 0).isLt
              have h1 : (i 1).val < 128 := (i 1).isLt
              omega⟩ : Fin 16384) t
            (⟨4 * (i 3).val + (i 4).val, by
              have h3 : (i 3).val < 4 := (i 3).isLt
              have h4 : (i 4).val < 4 := (i 4).isLt
              omega⟩ : Fin 16)))
      + x2 (ix3 (⟨128 * (i 0).val + (i 1).val, by
              have h0 : (i 0).val < 128 := (i 0).isLt
              have h1 : (i 1).val < 128 := (i 1).isLt
              omega⟩ : Fin 16384) (0 : Fin 1)
            (⟨4 * (i 3).val + (i 4).val, by
              have h3 : (i 3).val < 4 := (i 3).isLt
              have h4 : (i 4).val < 4 := (i 4).isLt
              omega⟩ : Fin 16))

/-- The output layout: batch axis first, patches interleaved into rows and columns, a unit channel axis. -/
def shuffle (h1 : SPixels.Transposes [2, 0, 3, 1, 4] SShuffled) (h2 : SShuffled.ShapeCasts SFlat)
    (h3 : SFlat.BroadcastsInDim SOut (![0, 2, 3] : Fin 3 → Fin SOut.rank)) (X : Vec Ideal SPixels .f32) :
    Vec Ideal SOut .f32 :=
  broadcastInDim SOut ![0, 2, 3] h3 (shapeCast SFlat (transpose SShuffled [2, 0, 3, 1, 4] X h1) h2)

end Cert.Spec

end
-- ==== Proof.KernelRun.lean ====
/-
  The kernel's whole run, over the extended reals: its result is `shuffle (pixels image weights bias)`.

  Before the launch the host regroups the weights [16384, 64, 16] as [128, 128, 1024] and the bias [16384, 1, 16] as
  [128, 128, 16] (row-major, so entry (p, q, 16 t + u) is weights[128 p + q, t, u] and (p, q, u) is bias[128 p + q, 0, u]);
  after it, it regroups the kernel's [128, 128, 64, 16] result as [128, 128, 64, 4, 4] (tap u = 4 d + e) and applies the
  output layout. Reading the regroupings at an index turns the kernel's array (`pixelSums`) into `pixels`.
-/
import proofs.«153475_j76046690943483_2_alg».proof.Proof.ArrayValue
import proofs.«153475_j76046690943483_2_alg».proof.Proof.Spec
import Idealize.ShloMosaic.Lib.StableHlo.Run

set_option maxRecDepth 16384

noncomputable section

open Idealize.ShloMosaic Idealize.ShloMosaic.TcCoe Idealize.SL.Sem Idealize.ShloMosaic.StableHlo
open Idealize.ShloMosaic.ValueIdx
open Idealize.ShloMosaic.Pipeline (Dat)

namespace Cert.KernelIdeal.Whole

open Cert.KernelIdeal Cert.KernelIdeal.Gen Cert.KernelIdeal.Arr Cert.Spec

/-- The kernel's array over the regrouped weights and bias, regrouped by taps, is `pixels`. -/
theorem regrouped_eq (x0 : Vec Ideal S64x64x128x128 .f32) (x1 : Vec Ideal S16384x64x16 .f32)
    (x2 : Vec Ideal S16384x1x16 .f32) (h0 : S16384x64x16.ShapeCasts S128x128x1024)
    (h1 : S16384x1x16.ShapeCasts S128x128x16) (h : S128x128x64x16.ShapeCasts S128x128x64x4x4) :
    shapeCast S128x128x64x4x4 (pixelSums x0 (shapeCast S128x128x1024 x1 h0) (shapeCast S128x128x16 x2 h1)) h
      = pixels x0 x1 x2 := by
  funext i
  have hi0 : (i 0).val < 128 := (i 0).isLt
  have hi1 : (i 1).val < 128 := (i 1).isLt
  have hi2 : (i 2).val < 64 := (i 2).isLt
  have hi3 : (i 3).val < 4 := (i 3).isLt
  have hi4 : (i 4).val < 4 := (i 4).isLt
  refine (shapeCast_apply _ h i (ix4 (i 0) (i 1) (i 2) (⟨4 * (i 3).val + (i 4).val, by omega⟩ : Fin 16)) ?_).trans ?_
  · rewrite [Shape.rowMajor_val_four, Shape.rowMajor_val_five]
    show (((i 0).val * 128 + (i 1).val) * 64 + (i 2).val) * 16 + (4 * (i 3).val + (i 4).val)
      = ((((i 0).val * 128 + (i 1).val) * 64 + (i 2).val) * 4 + (i 3).val) * 4 + (i 4).val
    omega
  unfold pixelSums pixels
  refine congrArg₂ (· + ·) (Finset.sum_congr rfl fun t _ => congrArg₂ (· * ·) rfl ?_) ?_
  · have ht : t.val < 64 := t.isLt
    refine shapeCast_apply x1 h0 _ _ ?_
    rewrite [Shape.rowMajor_val_three, Shape.rowMajor_val_three]
    show ((128 * (i 0).val + (i 1).val) * 64 + t.val) * 16 + (4 * (i 3).val + (i 4).val)
      = ((i 0).val * 128 + (i 1).val) * 1024 + (16 * t.val + (4 * (i 3).val + (i 4).val))
    omega
  · refine shapeCast_apply x2 h1 _ _ ?_
    rewrite [Shape.rowMajor_val_three, Shape.rowMajor_val_three]
    show ((128 * (i 0).val + (i 1).val) * 1 + 0) * 16 + (4 * (i 3).val + (i 4).val)
      = ((i 0).val * 128 + (i 1).val) * 16 + (4 * (i 3).val + (i 4).val)
    omega

variable (m : (ℓ : Loc nD τ sig) → Buf (Elt Ideal) ℓ) (ρ : Dev nD → PrngReg)

/-- The kernel finds the weights regrouped. -/
theorem V_weights (c : Dev nD) : (V m c main_v0 : Vec Ideal S128x128x1024 .f32)
    = shapeCast S128x128x1024 (m ((c : Thread nD τ).loc main_arg1)) shapeCasts_S16384x64x16_S128x128x1024 := by
  show StableHlo.after hostOps0 (fun b => m (c, b)) (Proc.devRef .tc main_v0) = _
  after_results
  rfl

/-- The kernel finds the bias regrouped. -/
theorem V_bias (c : Dev nD) : (V m c main_v1 : Vec Ideal S128x128x16 .f32)
    = shapeCast S128x128x16 (m ((c : Thread nD τ).loc main_arg2)) shapeCasts_S16384x1x16_S128x128x16 := by
  show StableHlo.after hostOps0 (fun b => m (c, b)) (Proc.devRef .tc main_v1) = _
  after_results
  rfl

/-- The program's result, after the host's last four operations. -/
theorem result_eq (c : Dev nD) :
    Pipeline.afterTail₀ cfgs (dats m) 0 (V0 m) [hostOps1] c main_v6
      = shuffle transposes_S128x128x64x4x4_S64x128x4x128x4_2_0_3_1_4 shapeCasts_S64x128x4x128x4_S64x512x512
          bcast_S64x512x512_S64x1x512x512_0_2_3
          (pixels (m ((c : Thread nD τ).loc main_arg0)) (m ((c : Thread nD τ).loc main_arg1))
            (m ((c : Thread nD τ).loc main_arg2))) := by
  unfold Pipeline.afterTail₀
  show StableHlo.after hostOps1 _ (Proc.devRef .tc main_v6) = _
  after_results
  rw [Pipeline.withArrays_arr spec0 launch0.win.arr_inj c _ _ 3, final m c, V_main_arg0, V_weights, V_bias]
  refine Eq.trans (b := shuffle transposes_S128x128x64x4x4_S64x128x4x128x4_2_0_3_1_4
      shapeCasts_S64x128x4x128x4_S64x512x512 bcast_S64x512x512_S64x1x512x512_0_2_3
      (shapeCast S128x128x64x4x4
        (pixelSums (m ((c : Thread nD τ).loc main_arg0))
          (shapeCast S128x128x1024 (m ((c : Thread nD τ).loc main_arg1)) shapeCasts_S16384x64x16_S128x128x1024)
          (shapeCast S128x128x16 (m ((c : Thread nD τ).loc main_arg2)) shapeCasts_S16384x1x16_S128x128x16))
        shapeCasts_S128x128x64x16_S128x128x64x4x4)) rfl ?_
  rw [regrouped_eq]

/-- The run, read: the result at `shuffle (pixels …)` of the arguments, the arguments unchanged. -/
theorem run : θ_run defs (onTc (τ := τ) (main (F := Ideal))) ⟨m, fun _ => 0, ρ⟩ fun r => ∀ c : Dev nD,
      r.2.mem ((c : Thread nD τ).loc main_v6)
        = shuffle transposes_S128x128x64x4x4_S64x128x4x128x4_2_0_3_1_4 shapeCasts_S64x128x4x128x4_S64x512x512
            bcast_S64x512x512_S64x1x512x512_0_2_3
            (pixels (m ((c : Thread nD τ).loc main_arg0)) (m ((c : Thread nD τ).loc main_arg1))
              (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefRun.lean ====
/-
  The reference's result, over the extended reals, is `shuffle (pixels image weights bias)` too.

  The reference flattens the two image axes, brings the pixel axis to the front, contracts the frame axis against the
  weights pixel by pixel, adds the bias, and regroups [16384, 64, 16] as [128, 128, 64, 4, 4] before the output layout.
  Reading those steps at an index of the regrouped array: pixel row `128 p + q`, batch b, tap `4 d + e`, the image
  at (b, t, p, q) — exactly the entries `pixels` names, the products summed over the same frames.
-/
import proofs.«153475_j76046690943483_2_alg».proof.Proof.Gen.ReferenceIdeal.Read
import proofs.«153475_j76046690943483_2_alg».proof.Proof.Spec

set_option maxRecDepth 16384

noncomputable section

open Idealize.ShloMosaic Idealize.ShloMosaic.TcCoe Idealize.SL.Sem
open Idealize.ShloMosaic.ValueIdx

namespace Cert.ReferenceIdeal.Whole

open Cert.ReferenceIdeal Cert.ReferenceIdeal.Gen Cert.ReferenceIdeal.Read Cert.Spec

/-- Splitting `(64 f + k) · 16384 + r` with `r < 16384`: the quotient by 16384. -/
theorem quot_frames (f k r : Nat) (hr : r < 16384) : ((f * 64 + k) * 16384 + r) / 16384 = f * 64 + k := by omega

/-- Splitting `g · 16384 + (128 b + d)` with `d < 128`: the quotient by 128. -/
theorem quot_rows (g b d : Nat) (hd : d < 128) : (g * 16384 + (128 * b + d)) / 128 = g * 128 + b := by omega

/-- The reference's regrouped sums are `pixels`. -/
theorem regrouped_eq (x0 : Vec Ideal S64x64x128x128 .f32) (x1 : Vec Ideal S16384x64x16 .f32)
    (x2 : Vec Ideal S16384x1x16 .f32) : val_main_v5 (F := Ideal) x0 x1 x2 = pixels x0 x1 x2 := by
  funext i
  have hi0 : (i 0).val < 128 := (i 0).isLt
  have hi1 : (i 1).val < 128 := (i 1).isLt
  have hi2 : (i 2).val < 64 := (i 2).isLt
  have hi3 : (i 3).val < 4 := (i 3).isLt
  have hi4 : (i 4).val < 4 := (i 4).isLt
  have e0 : (((((i 0).val * 128 + (i 1).val) * 64 + (i 2).val) * 4 + (i 3).val) * 4 + (i 4).val) / 1024 = 128 * (i 0).val + (i 1).val := by omega
  have e1 : (((((i 0).val * 128 + (i 1).val) * 64 + (i 2).val) * 4 + (i 3).val) * 4 + (i 4).val) / 16 % 64 = (i 2).val := by omega
  have e2 : (((((i 0).val * 128 + (i 1).val) * 64 + (i 2).val) * 4 + (i 3).val) * 4 + (i 4).val) % 16 = 4 * (i 3).val + (i 4).val := by omega
  rw [val_main_v5_apply, val_main_v4_apply, val_main_v2_apply, val_main_v3_apply]
  unfold pixels
  show _ + _ = _ + _
  refine congrArg₂ (· + ·) (Finset.sum_congr rfl fun k _ => congrArg₂ (· * ·) ?_ ?_) ?_
  · have hk : k.val < 64 := k.isLt
    rw [val_main_v1_apply, val_main_v0_apply]
    refine congrArg x0 (funext fun a => Fin.ext ?_)
    match a with
    | ⟨0, _⟩ => show ((((((((i 0).val * 128 + (i 1).val) * 64 + (i 2).val) * 4 + (i 3).val) * 4 + (i 4).val) / 16 % 64) * 64 + k.val) * 16384 + ((((((i 0).val * 128 + (i 1).val) * 64 + (i 2).val) * 4 + (i 3).val) * 4 + (i 4).val) / 1024)) / 1048576 = (i 2).val; rw [e1, e0]; clear e0 e1 e2; omega
    | ⟨1, _⟩ => show ((((((((i 0).val * 128 + (i 1).val) * 64 + (i 2).val) * 4 + (i 3).val) * 4 + (i 4).val) / 16 % 64) * 64 + k.val) * 16384 + ((((((i 0).val * 128 + (i 1).val) * 64 + (i 2).val) * 4 + (i 3).val) * 4 + (i 4).val) / 1024)) / 16384 % 64 = k.val; rw [e1, e0]; clear e0 e1 e2; rw [quot_frames _ _ _ (by omega)]; omega
    | ⟨2, _⟩ => show ((((((((i 0).val * 128 + (i 1).val) * 64 + (i 2).val) * 4 + (i 3).val) * 4 + (i 4).val) / 16 % 64) * 64 + k.val) * 16384 + ((((((i 0).val * 128 + (i 1).val) * 64 + (i 2).val) * 4 + (i 3).val) * 4 + (i 4).val) / 1024)) / 128 % 128 = (i 0).val; rw [e1, e0]; clear e0 e1 e2; rw [quot_rows _ _ _ hi1]; omega
    | ⟨3, _⟩ => show ((((((((i 0).val * 128 + (i 1).val) * 64 + (i 2).val) * 4 + (i 3).val) * 4 + (i 4).val) / 16 % 64) * 64 + k.val) * 16384 + ((((((i 0).val * 128 + (i 1).val) * 64 + (i 2).val) * 4 + (i 3).val) * 4 + (i 4).val) / 1024)) % 128 = (i 1).val; rw [e1, e0]; clear e0 e1 e2; omega
  · have hk : k.val < 64 := k.isLt
    refine congrArg x1 (funext fun a => Fin.ext ?_)
    match a with
    | ⟨0, _⟩ => exact e0
    | ⟨1, _⟩ => rfl
    | ⟨2, _⟩ => exact e2
  · refine congrArg x2 (funext fun a => Fin.ext ?_)
    match a with
    | ⟨0, _⟩ => exact e0
    | ⟨1, _⟩ => rfl
    | ⟨2, _⟩ => exact e2

/-- The reference's result is the output layout of `pixels`. -/
theorem result_eq (x0 : Vec Ideal S64x64x128x128 .f32) (x1 : Vec Ideal S16384x64x16 .f32)
    (x2 : Vec Ideal S16384x1x16 .f32) :
    val_main_v8 (F := Ideal) x0 x1 x2
      = shuffle transposes_S128x128x64x4x4_S64x128x4x128x4_2_0_3_1_4 shapeCasts_S64x128x4x128x4_S64x512x512
          bcast_S64x512x512_S64x1x512x512_0_2_3 (pixels x0 x1 x2) := by
  unfold val_main_v8 val_main_v7 val_main_v6
  rw [regrouped_eq]
  rfl

end Cert.ReferenceIdeal.Whole

end
-- ==== Proof.lean ====
/-
  The kernel and its reference compute the same array over the extended reals.

  Both programs compute, for every pixel (p, q) of a 128 × 128 grid, batch entry b and tap (d, e) of a 4 × 4 patch,
      (Σ_t  image[b, t, p, q] · weights[128 p + q, t, 4 d + e]) + bias[128 p + q, 0, 4 d + e]
  and lay the patches out in a [64, 1, 512, 512] image (`Cert.Spec.pixels`, `Cert.Spec.shuffle`). The kernel visits
  a 16 × 4 grid of (row block, batch block) points; at each it accumulates the 64 frames' products in order into a
  cleared scratch block, adds the bias and writes one block of the [128, 128, 64, 16] result (Proof/BlockAcc.lean,
  Proof/BlockValue.lean); the blocks tile that array (Proof/ArrayValue.lean), and the host's regroupings before and
  after the launch are row-major re-indexings (Proof/KernelRun.lean). The reference contracts the frame axis pixel by
  pixel with one batched product (Proof/RefRun.lean). The kernel's ordered sum from zero and the reference's finite sum
  are the same sum of the same products, so no precondition on the inputs is needed for the equality. No operation of
  the kernel is read differently in its idealization, so that conjunct is the trivial one.
-/
import proofs.«153475_j76046690943483_2_alg».proof.Defs
import proofs.«153475_j76046690943483_2_alg».proof.Proof.Gen.Kernel
import proofs.«153475_j76046690943483_2_alg».proof.Proof.Gen.Kernel.Skeleton
import proofs.«153475_j76046690943483_2_alg».proof.Proof.Gen.Kernel.Launch
import proofs.«153475_j76046690943483_2_alg».proof.Proof.Gen.Kernel.Points
import proofs.«153475_j76046690943483_2_alg».proof.Proof.Gen.Kernel.Frame
import proofs.«153475_j76046690943483_2_alg».proof.Proof.Gen.KernelIdeal
import proofs.«153475_j76046690943483_2_alg».proof.Proof.Gen.KernelIdeal.Skeleton
import proofs.«153475_j76046690943483_2_alg».proof.Proof.Gen.KernelIdeal.Launch
import proofs.«153475_j76046690943483_2_alg».proof.Proof.Gen.KernelIdeal.Points
import proofs.«153475_j76046690943483_2_alg».proof.Proof.Gen.KernelIdeal.Frame
import proofs.«153475_j76046690943483_2_alg».proof.Proof.Gen.ReferenceIdeal
import proofs.«153475_j76046690943483_2_alg».proof.Proof.Gen.Pre_finite_inputs
import proofs.«153475_j76046690943483_2_alg».proof.Proof.Gen.ReferenceIdeal.Run
import proofs.«153475_j76046690943483_2_alg».proof.Proof.Gen.ReferenceIdeal.Read
import proofs.«153475_j76046690943483_2_alg».proof.Proof.KernelRun
import proofs.«153475_j76046690943483_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference is a straight line of host operations: its run, with the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- Both runs end with the result at the output layout of `pixels` of the (agreeing) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Whole.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
